-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_v78) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S100000x128 : Shape := ⟨2, ![100000, 128]⟩
abbrev S500000x128 : Shape := ⟨2, ![500000, 128]⟩
abbrev S500000 : Shape := ⟨1, ![500000]⟩
abbrev S128x384 : Shape := ⟨2, ![128, 384]⟩
abbrev S128 : Shape := ⟨1, ![128]⟩
abbrev S128x128 : Shape := ⟨2, ![128, 128]⟩
abbrev S384x128 : Shape := ⟨2, ![384, 128]⟩
abbrev S384 : Shape := ⟨1, ![384]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000 : S_.BroadcastsInDim S100000 (![] : Fin 0 → Fin S100000.rank)
  reducesTo_S100000_S_d0 : S100000.ReducesTo [0] S_
  bcast_S_S500000x128 : S_.BroadcastsInDim S500000x128 (![] : Fin 0 → Fin S500000x128.rank)
  reducesTo_S500000x128_S_d0_1 : S500000x128.ReducesTo [0, 1] S_
  bcast_S_S500000 : S_.BroadcastsInDim S500000 (![] : Fin 0 → Fin S500000.rank)
  reducesTo_S500000_S_d0 : S500000.ReducesTo [0] S_
  bcast_S_S128x384 : S_.BroadcastsInDim S128x384 (![] : Fin 0 → Fin S128x384.rank)
  reducesTo_S128x384_S_d0_1 : S128x384.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_

variable [Facts]

def fn_part3 {F : FTy → Type} [FloatOps F] (main_arg12 : FVec F S384x128 .f32) (main_arg13 : FVec F S384 .f32) (main_v48 : IVec S_ 1) (main_v49 : FVec F S384 .f32) (main_v50 : FVec F S384 .f32) : IVec S_ 1 :=
  let main_v51 : IVec S384 1 := cmpf .olt main_v49 main_v50
  let main_c_19 : IVec S_ 1 := constantI S_ 1 1#1
  let main_v52 : IVec S_ 1 := (fun x v => Host.reduce IntOp.andi x v reducesTo_S384_S_d0 h_S_) main_v51 main_c_19
  let main_v53 : IVec S_ 1 := andi main_v48 main_v52
  let main_v54 : FVec F S384x128 .f32 := Host.absf main_arg12
  let main_cst_20 : FVec F S_ .f32 := constant S_ .f32 0x7F800000#32
  let main_v55 : FVec F S384x128 .f32 := broadcastInDim S384x128 ![] bcast_S_S384x128 main_cst_20
  let main_v56 : IVec S384x128 1 := cmpf .olt main_v54 main_v55
  let main_c_21 : IVec S_ 1 := constantI S_ 1 1#1
  let main_v57 : IVec S_ 1 := (fun x v => Host.reduce IntOp.andi x v reducesTo_S384x128_S_d0_1 h_S_) main_v56 main_c_21
  let main_v58 : IVec S_ 1 := andi main_v53 main_v57
  let main_v59 : FVec F S384 .f32 := Host.absf main_arg13
  let main_cst_22 : FVec F S_ .f32 := constant S_ .f32 0x7F800000#32
  let main_v60 : FVec F S384 .f32 := broadcastInDim S384 ![] bcast_S_S384 main_cst_22
  let main_v61 : IVec S384 1 := cmpf .olt main_v59 main_v60
  let main_c_23 : IVec S_ 1 := constantI S_ 1 1#1
  let main_v62 : IVec S_ 1 := (fun x v => Host.reduce IntOp.andi x v reducesTo_S384_S_d0 h_S_) main_v61 main_c_23
  let main_v63 : IVec S_ 1 := andi main_v58 main_v62
  main_v63

def fn_part2 {F : FTy → Type} [FloatOps F] (main_arg8 : FVec F S128x128 .f32) (main_arg9 : FVec F S128 .f32) (main_arg10 : FVec F S384x128 .f32) (main_arg11 : FVec F S384 .f32) (main_arg12 : FVec F S384x128 .f32) (main_arg13 : FVec F S384 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S384x128 .f32 := Host.absf main_arg10
  let main_cst_16 : FVec F S_ .f32 := constant S_ .f32 0x7F800000#32
  let main_v45 : FVec F S384x128 .f32 := broadcastInDim S384x128 ![] bcast_S_S384x128 main_cst_16
  let main_v46 : IVec S384x128 1 := cmpf .olt main_v44 main_v45
  let main_c_17 : IVec S_ 1 := constantI S_ 1 1#1
  let main_v47 : IVec S_ 1 := (fun x v => Host.reduce IntOp.andi x v reducesTo_S384x128_S_d0_1 h_S_) main_v46 main_c_17
  let main_v48 : IVec S_ 1 := andi main_v43 main_v47
  let main_v49 : FVec F S384 .f32 := Host.absf main_arg11
  let main_cst_18 : FVec F S_ .f32 := constant S_ .f32 0x7F800000#32
  let main_v50 : FVec F S384 .f32 := broadcastInDim S384 ![] bcast_S_S384 main_cst_18
  fn_part3 (F := F) main_arg12 main_arg13 main_v48 main_v49 main_v50

def fn_part1 {F : FTy → Type} [FloatOps F] (main_arg5 : FVec F S500000 .f32) (main_arg6 : FVec F S128x384 .f32) (main_arg7 : FVec F S128 .f32) (main_arg8 : FVec F S128x128 .f32) (main_arg9 : FVec F S128 .f32) (main_arg10 : FVec F S384x128 .f32) (main_arg11 : FVec F S384 .f32) (main_arg12 : FVec F S384x128 .f32) (main_arg13 : FVec F S384 .f32) (main_v13 : IVec S_ 1) (main_v16 : IVec S500000x128 1) : IVec S_ 1 :=
  let main_c_5 : IVec S_ 1 := constantI S_ 1 1#1
  let main_v17 : IVec S_ 1 := (fun x v => Host.reduce IntOp.andi x v reducesTo_S500000x128_S_d0_1 h_S_) main_v16 main_c_5
  let main_v18 : IVec S_ 1 := andi main_v13 main_v17
  let main_v19 : FVec F S500000 .f32 := Host.absf main_arg5
  let main_cst_6 : FVec F S_ .f32 := constant S_ .f32 0x7F800000#32
  let main_v20 : FVec F S500000 .f32 := broadcastInDim S500000 ![] bcast_S_S500000 main_cst_6
  let main_v21 : IVec S500000 1 := cmpf .olt main_v19 main_v20
  let main_c_7 : IVec S_ 1 := constantI S_ 1 1#1
  let main_v22 : IVec S_ 1 := (fun x v => Host.reduce IntOp.andi x v reducesTo_S500000_S_d0 h_S_) main_v21 main_c_7
  let main_v23 : IVec S_ 1 := andi main_v18 main_v22
  let main_v24 : FVec F S128x384 .f32 := Host.absf main_arg6
  let main_cst_8 : FVec F S_ .f32 := constant S_ .f32 0x7F800000#32
  let main_v25 : FVec F S128x384 .f32 := broadcastInDim S128x384 ![] bcast_S_S128x384 main_cst_8
  let main_v26 : IVec S128x384 1 := cmpf .olt main_v24 main_v25
  let main_c_9 : IVec S_ 1 := constantI S_ 1 1#1
  let main_v27 : IVec S_ 1 := (fun x v => Host.reduce IntOp.andi x v reducesTo_S128x384_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : IVec S100000 32) (main_arg1 : FVec F S100000x128 .f32) (main_arg2 : FVec F S100000x128 .f32) (main_arg3 : FVec F S100000 .f32) (main_arg4 : FVec F S500000x128 .f32) (main_arg5 : FVec F S500000 .f32) (main_arg6 : FVec F S128x384 .f32) (main_arg7 : FVec F S128 .f32) (main_arg8 : FVec F S128x128 .f32) (main_arg9 : FVec F S128 .f32) (main_arg10 : FVec F S384x128 .f32) (main_arg11 : FVec F S384 .f32) (main_arg12 : FVec F S384x128 .f32) (main_arg13 : FVec F S384 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg2
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S100000 .f32 := Host.absf main_arg3
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_v14 : FVec F S500000x128 .f32 := Host.absf main_arg4
  let main_cst_4 : FVec F S_ .f32 := constant S_ .f32 0x7F800000#32
  let main_v15 : FVec F S500000x128 .f32 := broadcastInDim S500000x128 ![] bcast_S_S500000x128 main_cst_4
  let main_v16 : IVec S500000x128 1 := cmpf .olt main_v14 main_v15
  fn_part1 (F := F) main_arg5 main_arg6 main_arg7 main_arg8 main_arg9 main_arg10 main_arg11 main_arg12 main_arg13 main_v13 main_v16
-- ==== Kernel.lean ====
abbrev S100000 : Shape := ⟨1, ![100000]⟩
abbrev S100000x128 : Shape := ⟨2, ![100000, 128]⟩
abbrev S500000x128 : Shape := ⟨2, ![500000, 128]⟩
abbrev S500000 : Shape := ⟨1, ![500000]⟩
abbrev S128x384 : Shape := ⟨2, ![128, 384]⟩
abbrev S128 : Shape := ⟨1, ![128]⟩
abbrev S128x128 : Shape := ⟨2, ![128, 128]⟩
abbrev S384x128 : Shape := ⟨2, ![384, 128]⟩
abbrev S384 : Shape := ⟨1, ![384]⟩
abbrev S_ : Shape := ⟨0, ![]⟩
abbrev S100000x1 : Shape := ⟨2, ![100000, 1]⟩
abbrev S2000x128 : Shape := ⟨2, ![2000, 128]⟩
abbrev S1x128 : Shape := ⟨2, ![1, 128]⟩
abbrev S2000x384 : Shape := ⟨2, ![2000, 384]⟩
abbrev S1x384 : Shape := ⟨2, ![1, 384]⟩

abbrev nBuf : Space → Nat
  | .hbm => 65
  | .vmem => 20
  | .smem => 0
  | _ => 0

abbrev bufTy : (tb : Table) → Fin (tcTables nBuf tb) → BufTy
  | .hbm, ⟨0, _⟩ => ⟨S100000, .i32⟩
  | .hbm, ⟨1, _⟩ => ⟨S100000x128, .f32⟩
  | .hbm, ⟨2, _⟩ => ⟨S100000x128, .f32⟩
  | .hbm, ⟨3, _⟩ => ⟨S100000, .f32⟩
  | .hbm, ⟨4, _⟩ => ⟨S500000x128, .f32⟩
  | .hbm, ⟨5, _⟩ => ⟨S500000, .f32⟩
  | .hbm, ⟨6, _⟩ => ⟨S128x384, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S384x128, .f32⟩
  | .hbm, ⟨11, _⟩ => ⟨S384, .f32⟩
  | .hbm, ⟨12, _⟩ => ⟨S384x128, .f32⟩
  | .hbm, ⟨13, _⟩ => ⟨S384, .f32⟩
  | .hbm, ⟨14, _⟩ => ⟨S_, .i32⟩
  | .hbm, ⟨15, _⟩ => ⟨S100000, .i32⟩
  | .hbm, ⟨16, _⟩ => ⟨S100000, .i1⟩
  | .hbm, ⟨17, _⟩ => ⟨S_, .i32⟩
  | .hbm, ⟨18, _⟩ => ⟨S100000, .i32⟩
  | .hbm, ⟨19, _⟩ => ⟨S100000, .i32⟩
  | .hbm, ⟨20, _⟩ => ⟨S100000, .i32⟩
  | .hbm, ⟨21, _⟩ => ⟨S100000x1, .i32⟩
  | .hbm, ⟨22, _⟩ => ⟨S100000x128, .f32⟩
  | .hbm, ⟨23, _⟩ => ⟨S384x128, .f32⟩
  | .hbm, ⟨24, _⟩ => ⟨S384x128, .bf16⟩
  | .hbm, ⟨25, _⟩ => ⟨S128x128, .bf16⟩
  | .hbm, ⟨26, _⟩ => ⟨S128x128, .bf16⟩
  | .hbm, ⟨27, _⟩ => ⟨S128x128, .bf16⟩
  | .hbm, ⟨28, _⟩ => ⟨S128x128, .f32⟩
  | .hbm, ⟨29, _⟩ => ⟨S128x128, .bf16⟩
  | .hbm, ⟨30, _⟩ => ⟨S128x384, .f32⟩
  | .hbm, ⟨31, _⟩ => ⟨S128x384, .bf16⟩
  | .hbm, ⟨32, _⟩ => ⟨S128x384, .f32⟩
  | .hbm, ⟨33, _⟩ => ⟨S128x384, .bf16⟩
  | .hbm, ⟨34, _⟩ => ⟨S100000x128, .f32⟩
  | .hbm, ⟨35, _⟩ => ⟨S100000x128, .f32⟩
  | .hbm, ⟨36, _⟩ => ⟨S_, .i32⟩
  | .hbm, ⟨37, _⟩ => ⟨S100000, .i32⟩
  | .hbm, ⟨38, _⟩ => ⟨S100000, .i1⟩
  | .hbm, ⟨39, _⟩ => ⟨S_, .i32⟩
  | .hbm, ⟨40, _⟩ => ⟨S100000, .i32⟩
  | .hbm, ⟨41, _⟩ => ⟨S100000, .i32⟩
  | .hbm, ⟨42, _⟩ => ⟨S100000, .i32⟩
  | .hbm, ⟨43, _⟩ => ⟨S100000x1, .i32⟩
  | .hbm, ⟨44, _⟩ => ⟨S500000x128, .f32⟩
  | .hbm, ⟨45, _⟩ => ⟨S_, .i32⟩
  | .hbm, ⟨46, _⟩ => ⟨S100000, .i32⟩
  | .hbm, ⟨47, _⟩ => ⟨S100000, .i1⟩
  | .hbm, ⟨48, _⟩ => ⟨S_, .i32⟩
  | .hbm, ⟨49, _⟩ => ⟨S100000, .i32⟩
  | .hbm, ⟨50, _⟩ => ⟨S100000, .i32⟩
  | .hbm, ⟨51, _⟩ => ⟨S100000, .i32⟩
  | .hbm, ⟨52, _⟩ => ⟨S100000x1, .i32⟩
  | .hbm, ⟨53, _⟩ => ⟨S500000, .f32⟩
  | .hbm, ⟨54, _⟩ => ⟨S_, .f32⟩
  | .hbm, ⟨55, _⟩ => ⟨S500000x128, .f32⟩
  | .hbm, ⟨56, _⟩ => ⟨S_, .i32⟩
  | .hbm, ⟨57, _⟩ => ⟨S100000, .i32⟩
  | .hbm, ⟨58, _⟩ => ⟨S100000, .i1⟩
  | .hbm, ⟨59, _⟩ => ⟨S_, .i32⟩
  | .hbm, ⟨60, _⟩ => ⟨S100000, .i32⟩
  | .hbm, ⟨61, _⟩ => ⟨S100000, .i32⟩
  | .hbm, ⟨62, _⟩ => ⟨S100000, .i32⟩
  | .hbm, ⟨63, _⟩ => ⟨S100000x1, .i32⟩
  | .hbm, ⟨64, _⟩ => ⟨S500000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128, .f32⟩
  | .local _ .vmem, ⟨10, _⟩ => ⟨S128x128, .bf16⟩
  | .local _ .vmem, ⟨11, _⟩ => ⟨S128, .f32⟩
  | .local _ .vmem, ⟨12, _⟩ => ⟨S128x384, .bf16⟩
  | .local _ .vmem, ⟨13, _⟩ => ⟨S384, .f32⟩
  | .local _ .vmem, ⟨14, _⟩ => ⟨S128x384, .bf16⟩
  | .local _ .vmem, ⟨15, _⟩ => ⟨S384, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_v15 : Ref sig .tc := ⟨.hbm, 31, rfl⟩
abbrev main_call0_v16 : Ref sig .tc := ⟨.hbm, 32, rfl⟩
abbrev main_call0_v17 : Ref sig .tc := ⟨.hbm, 33, rfl⟩
abbrev main_call0_v18_0 : Ref sig .tc := ⟨.hbm, 34, rfl⟩
abbrev main_call0_v18_1 : Ref sig .tc := ⟨.hbm, 35, rfl⟩
abbrev main_call0_c_1 : Ref sig .tc := ⟨.hbm, 36, rfl⟩
abbrev main_call0_v19 : Ref sig .tc := ⟨.hbm, 37, rfl⟩
abbrev main_call0_v20 : Ref sig .tc := ⟨.hbm, 38, rfl⟩
abbrev main_call0_c_2 : Ref sig .tc := ⟨.hbm, 39, rfl⟩
abbrev main_call0_v21 : Ref sig .tc := ⟨.hbm, 40, rfl⟩
abbrev main_call0_v22 : Ref sig .tc := ⟨.hbm, 41, rfl⟩
abbrev main_call0_v23 : Ref sig .tc := ⟨.hbm, 42, rfl⟩
abbrev main_call0_v24 : Ref sig .tc := ⟨.hbm, 43, rfl⟩
abbrev main_v0_0 : Ref sig .tc := ⟨.hbm, 44, rfl⟩
abbrev main_call0_c_3 : Ref sig .tc := ⟨.hbm, 45, rfl⟩
abbrev main_call0_v26 : Ref sig .tc := ⟨.hbm, 46, rfl⟩
abbrev main_call0_v27 : Ref sig .tc := ⟨.hbm, 47, rfl⟩
abbrev main_call0_c_4 : Ref sig .tc := ⟨.hbm, 48, rfl⟩
abbrev main_call0_v28 : Ref sig .tc := ⟨.hbm, 49, rfl⟩
abbrev main_call0_v29 : Ref sig .tc := ⟨.hbm, 50, rfl⟩
abbrev main_call0_v30 : Ref sig .tc := ⟨.hbm, 51, rfl⟩
abbrev main_call0_v31 : Ref sig .tc := ⟨.hbm, 52, rfl⟩
abbrev main_v0_1 : Ref sig .tc := ⟨.hbm, 53, rfl⟩
abbrev main_call0_cst : Ref sig .tc := ⟨.hbm, 54, rfl⟩
abbrev main_call0_v33 : Ref sig .tc := ⟨.hbm, 55, rfl⟩
abbrev main_call0_c_5 : Ref sig .tc := ⟨.hbm, 56, rfl⟩
abbrev main_call0_v34 : Ref sig .tc := ⟨.hbm, 57, rfl⟩
abbrev main_call0_v35 : Ref sig .tc := ⟨.hbm, 58, rfl⟩
abbrev main_call0_c_6 : Ref sig .tc := ⟨.hbm, 59, rfl⟩
abbrev main_call0_v36 : Ref sig .tc := ⟨.hbm, 60, rfl⟩
abbrev main_call0_v37 : Ref sig .tc := ⟨.hbm, 61, rfl⟩
abbrev main_call0_v38 : Ref sig .tc := ⟨.hbm, 62, rfl⟩
abbrev main_call0_v39 : Ref sig .tc := ⟨.hbm, 63, rfl⟩
abbrev main_v0_2 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x384 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x384 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S384 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S2000x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2000x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  transposes_S128x384_S384x128_1_0 : S128x384.Transposes [1, 0] S384x128
  bitsLt_bf16_f32 : FTy.bits .bf16 < FTy.bits .f32
  slices_S384x128_S128x128_0_0 : S384x128.Slices ![0, 0] S128x128
  slices_S384x128_S128x128_128_0 : S384x128.Slices ![128, 0] S128x128
  slices_S384x128_S128x128_256_0 : S384x128.Slices ![256, 0] S128x128
  transposes_S128x128_S128x128_1_0 : S128x128.Transposes [1, 0] S128x128
  transposes_S384x128_S128x384_1_0 : S384x128.Transposes [1, 0] S128x384
  bcast_S_S500000x128 : S_.BroadcastsInDim S500000x128 (![] : Fin 0 → Fin S500000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S384_S384_0 : ∀ a, (![0] : Fin 1 → Nat) a + S384.size a ≤ S384.size a
  h_S384 : 0 < S384.numel
  shapeCasts_S384_S1x384 : S384.ShapeCasts S1x384
  broadcasts_S1x384_S2000x384 : S1x384.Broadcasts S2000x384
  slices_S2000x384_o0_0_S2000x128 : S2000x384.Slices ![0, 0] S2000x128
  slices_S2000x384_o0_128_S2000x128 : S2000x384.Slices ![0, 128] S2000x128
  slices_S2000x384_o0_256_S2000x128 : S2000x384.Slices ![0, 256] S2000x128
  gather_S500000x128_S100000x1_S100000x128_1_0_n_n_0_1_1128_wf : GatherDims.WF S500000x128 S100000x1 S100000x128 [1] [0] [] [0] [] 1 ![1, 128]
  scatter_S500000x128_S100000x1_S100000x128_1_0_0_1_wf : ScatterDims.WF S500000x128 S100000x1 S100000x128 [1] [0] [0] 1
  scatter_S500000_S100000x1_S100000_n_0_0_1_wf : ScatterDims.WF S500000 S100000x1 S100000 [] [0] [0] 1
  dot_S2000x128_S128x128_S2000x128_1_0_0_1_n_n_wf : DotDims.WF S2000x128 S128x128 S2000x128 [1] [0] [0] [1] [] []
  dot_S2000x128_S128x384_S2000x384_1_0_0_1_n_n_wf : DotDims.WF S2000x128 S128x384 S2000x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x384.size a ≤ S128x384.size a
  hwx0_9 : ∀ i : grid0.Coords, EltTy.bits .bf16 = 32 ∨ (Rect.block (s := S128x384) S128x384.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S384.size a ≤ S384.size a
  hwx0_10 : ∀ i : grid0.Coords, EltTy.bits .f32 = 32 ∨ (Rect.block (s := S384) S384.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x384.size a ≤ S128x384.size a
  hwx0_11 : ∀ i : grid0.Coords, EltTy.bits .bf16 = 32 ∨ (Rect.block (s := S128x384) S128x384.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S384.size a ≤ S384.size a
  hwx0_12 : ∀ i : grid0.Coords, EltTy.bits .f32 = 32 ∨ (Rect.block (s := S384) S384.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2000x128.size a ≤ S100000x128.size a
  hwx0_13 : ∀ i : grid0.Coords, EltTy.bits .f32 = 32 ∨ (Rect.block (s := S100000x128) S2000x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S2000x128.size a ≤ S100000x128.size a
  hwx0_14 : ∀ i : grid0.Coords, EltTy.bits .f32 = 32 ∨ (Rect.block (s := S100000x128) S2000x128.size (cc0_transform_14 i) (hinb0_14 i)).WholeWords (EltTy.packing .f32)

variable [Facts₀]

def gather_S500000x128_S100000x1_S100000x128_1_0_n_n_0_1_1128 : GatherDims S500000x128 S100000x1 S100000x128 where
  offsetDims := [1]
  collapsedSliceDims := [0]
  operandBatchingDims := []
  startIndicesBatchingDims := []
  startIndexMap := [0]
  indexVectorDim := 1
  sliceSizes := ![1, 128]
  wf := gather_S500000x128_S100000x1_S100000x128_1_0_n_n_0_1_1128_wf
def scatter_S500000x128_S100000x1_S100000x128_1_0_0_1 : ScatterDims S500000x128 S100000x1 S100000x128 where
  updateWindowDims := [1]
  insertedWindowDims := [0]
  scatterDimsToOperandDims := [0]
  indexVectorDim := 1
  wf := scatter_S500000x128_S100000x1_S100000x128_1_0_0_1_wf
def scatter_S500000_S100000x1_S100000_n_0_0_1 : ScatterDims S500000 S100000x1 S100000 where
  updateWindowDims := []
  insertedWindowDims := [0]
  scatterDimsToOperandDims := [0]
  indexVectorDim := 1
  wf := scatter_S500000_S100000x1_S100000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf

abbrev win0_0 : Pipeline.Window sig grid0 :=
  Pipeline.Window.ofSpec (Memref.whole main_arg1) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v6) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v9) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v10) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v11) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v13) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v15) S128x384.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S384.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_call0_v17) S128x384.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg13) S384.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_call0_v18_0) S2000x128.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_call0_v18_1) S2000x128.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S100000 : Shape := ⟨1, ![100000]⟩
abbrev S100000x128 : Shape := ⟨2, ![100000, 128]⟩
abbrev S500000x128 : Shape := ⟨2, ![500000, 128]⟩
abbrev S500000 : Shape := ⟨1, ![500000]⟩
abbrev S128x384 : Shape := ⟨2, ![128, 384]⟩
abbrev S128 : Shape := ⟨1, ![128]⟩
abbrev S128x128 : Shape := ⟨2, ![128, 128]⟩
abbrev S384x128 : Shape := ⟨2, ![384, 128]⟩
abbrev S384 : Shape := ⟨1, ![384]⟩
abbrev S_ : Shape := ⟨0, ![]⟩
abbrev S100000x1 : Shape := ⟨2, ![100000, 1]⟩
abbrev S100000x384 : Shape := ⟨2, ![100000, 384]⟩
abbrev S1x128 : Shape := ⟨2, ![1, 128]⟩
abbrev S1x384 : Shape := ⟨2, ![1, 384]⟩

abbrev nBuf : Space → Nat
  | .hbm => 109
  | .vmem => 0
  | .smem => 0
  | _ => 0

abbrev bufTy : (tb : Table) → Fin (tcTables nBuf tb) → BufTy
  | .hbm, ⟨0, _⟩ => ⟨S100000, .i32⟩
  | .hbm, ⟨1, _⟩ => ⟨S100000x128, .f32⟩
  | .hbm, ⟨2, _⟩ => ⟨S100000x128, .f32⟩
  | .hbm, ⟨3, _⟩ => ⟨S100000, .f32⟩
  | .hbm, ⟨4, _⟩ => ⟨S500000x128, .f32⟩
  | .hbm, ⟨5, _⟩ => ⟨S500000, .f32⟩
  | .hbm, ⟨6, _⟩ => ⟨S128x384, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S384x128, .f32⟩
  | .hbm, ⟨11, _⟩ => ⟨S384, .f32⟩
  | .hbm, ⟨12, _⟩ => ⟨S384x128, .f32⟩
  | .hbm, ⟨13, _⟩ => ⟨S384, .f32⟩
  | .hbm, ⟨14, _⟩ => ⟨S_, .i32⟩
  | .hbm, ⟨15, _⟩ => ⟨S100000, .i32⟩
  | .hbm, ⟨16, _⟩ => ⟨S100000, .i1⟩
  | .hbm, ⟨17, _⟩ => ⟨S_, .i32⟩
  | .hbm, ⟨18, _⟩ => ⟨S100000, .i32⟩
  | .hbm, ⟨19, _⟩ => ⟨S100000, .i32⟩
  | .hbm, ⟨20, _⟩ => ⟨S100000, .i32⟩
  | .hbm, ⟨21, _⟩ => ⟨S100000x1, .i32⟩
  | .hbm, ⟨22, _⟩ => ⟨S100000x128, .f32⟩
  | .hbm, ⟨23, _⟩ => ⟨S100000x384, .f32⟩
  | .hbm, ⟨24, _⟩ => ⟨S384x128, .f32⟩
  | .hbm, ⟨25, _⟩ => ⟨S100000x128, .f32⟩
  | .hbm, ⟨26, _⟩ => ⟨S1x128, .f32⟩
  | .hbm, ⟨27, _⟩ => ⟨S100000x128, .f32⟩
  | .hbm, ⟨28, _⟩ => ⟨S100000x128, .f32⟩
  | .hbm, ⟨29, _⟩ => ⟨S_, .f32⟩
  | .hbm, ⟨30, _⟩ => ⟨S100000x128, .f32⟩
  | .hbm, ⟨31, _⟩ => ⟨S100000x128, .f32⟩
  | .hbm, ⟨32, _⟩ => ⟨S128x128, .f32⟩
  | .hbm, ⟨33, _⟩ => ⟨S100000x128, .f32⟩
  | .hbm, ⟨34, _⟩ => ⟨S1x128, .f32⟩
  | .hbm, ⟨35, _⟩ => ⟨S100000x128, .f32⟩
  | .hbm, ⟨36, _⟩ => ⟨S100000x128, .f32⟩
  | .hbm, ⟨37, _⟩ => ⟨S128x384, .f32⟩
  | .hbm, ⟨38, _⟩ => ⟨S100000x384, .f32⟩
  | .hbm, ⟨39, _⟩ => ⟨S1x384, .f32⟩
  | .hbm, ⟨40, _⟩ => ⟨S100000x384, .f32⟩
  | .hbm, ⟨41, _⟩ => ⟨S100000x384, .f32⟩
  | .hbm, ⟨42, _⟩ => ⟨S128x384, .f32⟩
  | .hbm, ⟨43, _⟩ => ⟨S100000x384, .f32⟩
  | .hbm, ⟨44, _⟩ => ⟨S1x384, .f32⟩
  | .hbm, ⟨45, _⟩ => ⟨S100000x384, .f32⟩
  | .hbm, ⟨46, _⟩ => ⟨S100000x384, .f32⟩
  | .hbm, ⟨47, _⟩ => ⟨S100000x128, .f32⟩
  | .hbm, ⟨48, _⟩ => ⟨S100000x128, .f32⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S100000x128, .f32⟩
  | .hbm, ⟨53, _⟩ => ⟨S100000x128, .f32⟩
  | .hbm, ⟨54, _⟩ => ⟨S100000x128, .f32⟩
  | .hbm, ⟨55, _⟩ => ⟨S100000x128, .f32⟩
  | .hbm, ⟨56, _⟩ => ⟨S_, .f32⟩
  | .hbm, ⟨57, _⟩ => ⟨S100000x128, .f32⟩
  | .hbm, ⟨58, _⟩ => ⟨S100000x128, .f32⟩
  | .hbm, ⟨59, _⟩ => ⟨S_, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S_, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S_, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S100000x128, .f32⟩
  | .hbm, ⟨80, _⟩ => ⟨S_, .i32⟩
  | .hbm, ⟨81, _⟩ => ⟨S100000, .i32⟩
  | .hbm, ⟨82, _⟩ => ⟨S100000, .i1⟩
  | .hbm, ⟨83, _⟩ => ⟨S_, .i32⟩
  | .hbm, ⟨84, _⟩ => ⟨S100000, .i32⟩
  | .hbm, ⟨85, _⟩ => ⟨S100000, .i32⟩
  | .hbm, ⟨86, _⟩ => ⟨S100000, .i32⟩
  | .hbm, ⟨87, _⟩ => ⟨S100000x1, .i32⟩
  | .hbm, ⟨88, _⟩ => ⟨S500000x128, .f32⟩
  | .hbm, ⟨89, _⟩ => ⟨S_, .i32⟩
  | .hbm, ⟨90, _⟩ => ⟨S100000, .i32⟩
  | .hbm, ⟨91, _⟩ => ⟨S100000, .i1⟩
  | .hbm, ⟨92, _⟩ => ⟨S_, .i32⟩
  | .hbm, ⟨93, _⟩ => ⟨S100000, .i32⟩
  | .hbm, ⟨94, _⟩ => ⟨S100000, .i32⟩
  | .hbm, ⟨95, _⟩ => ⟨S100000, .i32⟩
  | .hbm, ⟨96, _⟩ => ⟨S100000x1, .i32⟩
  | .hbm, ⟨97, _⟩ => ⟨S500000, .f32⟩
  | .hbm, ⟨98, _⟩ => ⟨S_, .f32⟩
  | .hbm, ⟨99, _⟩ => ⟨S500000x128, .f32⟩
  | .hbm, ⟨100, _⟩ => ⟨S_, .i32⟩
  | .hbm, ⟨101, _⟩ => ⟨S100000, .i32⟩
  | .hbm, ⟨102, _⟩ => ⟨S100000, .i1⟩
  | .hbm, ⟨103, _⟩ => ⟨S_, .i32⟩
  | .hbm, ⟨104, _⟩ => ⟨S100000, .i32⟩
  | .hbm, ⟨105, _⟩ => ⟨S100000, .i32⟩
  | .hbm, ⟨106, _⟩ => ⟨S100000, .i32⟩
  | .hbm, ⟨107, _⟩ => ⟨S100000x1, .i32⟩
  | .hbm, ⟨108, _⟩ => ⟨S500000x128, .f32⟩
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_call0_cst : Ref sig .tc := ⟨.hbm, 29, rfl⟩
abbrev main_call0_v0 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst : Ref sig .tc := ⟨.hbm, 56, rfl⟩
abbrev main_v38 : Ref sig .tc := ⟨.hbm, 57, rfl⟩
abbrev main_v39 : Ref sig .tc := ⟨.hbm, 58, rfl⟩
abbrev main_cst_1 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_2 : Ref sig .tc := ⟨.hbm, 65, rfl⟩
abbrev main_v45 : Ref sig .tc := ⟨.hbm, 66, rfl⟩
abbrev main_v46 : Ref sig .tc := ⟨.hbm, 67, rfl⟩
abbrev main_cst_3 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_4 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_5 : Ref sig .tc := ⟨.hbm, 80, rfl⟩
abbrev main_v57 : Ref sig .tc := ⟨.hbm, 81, rfl⟩
abbrev main_v58 : Ref sig .tc := ⟨.hbm, 82, rfl⟩
abbrev main_c_6 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_7 : Ref sig .tc := ⟨.hbm, 89, rfl⟩
abbrev main_v64 : Ref sig .tc := ⟨.hbm, 90, rfl⟩
abbrev main_v65 : Ref sig .tc := ⟨.hbm, 91, rfl⟩
abbrev main_c_8 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_9 : Ref sig .tc := ⟨.hbm, 98, rfl⟩
abbrev main_v71 : Ref sig .tc := ⟨.hbm, 99, rfl⟩
abbrev main_c_10 : Ref sig .tc := ⟨.hbm, 100, rfl⟩
abbrev main_v72 : Ref sig .tc := ⟨.hbm, 101, rfl⟩
abbrev main_v73 : Ref sig .tc := ⟨.hbm, 102, rfl⟩
abbrev main_c_11 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  concatenates_S100000x128_S100000x128_S100000x128_S100000x384_d1 : Shape.Concatenates [S100000x128, S100000x128, S100000x128] S100000x384 1
  transposes_S128x384_S384x128_1_0 : S128x384.Transposes [1, 0] S384x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  transposes_S128x128_S128x128_1_0 : S128x128.Transposes [1, 0] S128x128
  transposes_S384x128_S128x384_1_0 : S384x128.Transposes [1, 0] S128x384
  bcast_S384_S1x384_1 : S384.BroadcastsInDim S1x384 (![1] : Fin 1 → Fin S1x384.rank)
  bcast_S1x384_S100000x384_0_1 : S1x384.BroadcastsInDim S100000x384 (![0, 1] : Fin 2 → Fin S100000x384.rank)
  slices_S100000x384_S100000x128_0_0 : S100000x384.Slices ![0, 0] S100000x128
  slices_S100000x384_S100000x128_0_128 : S100000x384.Slices ![0, 128] S100000x128
  slices_S100000x384_S100000x128_0_256 : S100000x384.Slices ![0, 256] S100000x128
  bcast_S_S500000x128 : S_.BroadcastsInDim S500000x128 (![] : Fin 0 → Fin S500000x128.rank)
  gather_S500000x128_S100000x1_S100000x128_1_0_n_n_0_1_1128_wf : GatherDims.WF S500000x128 S100000x1 S100000x128 [1] [0] [] [0] [] 1 ![1, 128]
  dot_S100000x384_S384x128_S100000x128_1_0_0_1_n_n_wf : DotDims.WF S100000x384 S384x128 S100000x128 [1] [0] [0] [1] [] []
  dot_S100000x128_S128x128_S100000x128_1_0_0_1_n_n_wf : DotDims.WF S100000x128 S128x128 S100000x128 [1] [0] [0] [1] [] []
  dot_S100000x128_S128x384_S100000x384_1_0_0_1_n_n_wf : DotDims.WF S100000x128 S128x384 S100000x384 [1] [0] [0] [1] [] []
  scatter_S500000x128_S100000x1_S100000x128_1_0_0_1_wf : ScatterDims.WF S500000x128 S100000x1 S100000x128 [1] [0] [0] 1
  scatter_S500000_S100000x1_S100000_n_0_0_1_wf : ScatterDims.WF S500000 S100000x1 S100000 [] [0] [0] 1

variable [Facts₀]

def gather_S500000x128_S100000x1_S100000x128_1_0_n_n_0_1_1128 : GatherDims S500000x128 S100000x1 S100000x128 where
  offsetDims := [1]
  collapsedSliceDims := [0]
  operandBatchingDims := []
  startIndicesBatchingDims := []
  startIndexMap := [0]
  indexVectorDim := 1
  sliceSizes := ![1, 128]
  wf := gather_S500000x128_S100000x1_S100000x128_1_0_n_n_0_1_1128_wf
def dot_S100000x384_S384x128_S100000x128_1_0_0_1_n_n : DotDims S100000x384 S384x128 S100000x128 where
  lhsContracting := [1]
  rhsContracting := [0]
  lhsNonContracting := [0]
  rhsNonContracting := [1]
  lhsBatch := []
  rhsBatch := []
  wf := dot_S100000x384_S384x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x384_S100000x384_1_0_0_1_n_n : DotDims S100000x128 S128x384 S100000x384 where
  lhsContracting := [1]
  rhsContracting := [0]
  lhsNonContracting := [0]
  rhsNonContracting := [1]
  lhsBatch := []
  rhsBatch := []
  wf := dot_S100000x128_S128x384_S100000x384_1_0_0_1_n_n_wf
def scatter_S500000x128_S100000x1_S100000x128_1_0_0_1 : ScatterDims S500000x128 S100000x1 S100000x128 where
  updateWindowDims := [1]
  insertedWindowDims := [0]
  scatterDimsToOperandDims := [0]
  indexVectorDim := 1
  wf := scatter_S500000x128_S100000x1_S100000x128_1_0_0_1_wf
def scatter_S500000_S100000x1_S100000_n_0_0_1 : ScatterDims S500000 S100000x1 S100000 where
  updateWindowDims := []
  insertedWindowDims := [0]
  scatterDimsToOperandDims := [0]
  indexVectorDim := 1
  wf := scatter_S500000_S100000x1_S100000_n_0_0_1_wf

class Facts : Prop extends Facts₀ where

variable [Facts]
-- ==== Proof.GruSpec.lean ====
/-
  The mathematics of one batch row, on the extended reals.

  A batch row carries three vectors of length 128: the node's features x, the node's memory row y
  (gathered from the memory table) and the edge's features z. The message network reads their
  concatenation [x, y, z] of length 384 through a dense layer W1 (128 x 384, one row per output),
  adds the bias, clamps at zero, and applies a second dense layer W2 (128 x 128) with its bias: this is
  the row's message. A GRU cell then updates the memory row from the message: the input-side
  pre-activations (from the message, through Wih, 384 x 128) and the hidden-side pre-activations
  (from the memory row, through Whh, 384 x 128) come in three blocks of 128 -- reset, update,
  candidate --, and the new memory row is (1 - u) * n + u * y with r = logistic(gi0 + gh0),
  u = logistic(gi1 + gh1), n = tanh(gi2 + r * gh2).

  The dense layer over the concatenation is written here as the sum of three sums of length 128, one
  per part of the row; sum_three_blocks is the law that a sum over 384 columns is that sum of three
  (addition on the extended reals is commutative and associative, so no finiteness is needed).
-/
import Idealize.ShloMosaic.PureOps.Ideal
import Idealize.ShloMosaic.PureOps.Ideal.Laws
import Idealize.ShloMosaic.Lib.ValueIdx

noncomputable section

namespace Cert.GruSpec

open Idealize.ShloMosaic Idealize.ShloMosaic.ValueIdx

/-- A matrix of extended reals, indexed as an array of rank 2. -/
abbrev Mat (a b : Nat) : Type := (⟨2, ![a, b]⟩ : Shape).Idx → EReal
/-- A vector of extended reals, indexed as an array of rank 1. -/
abbrev Vc (a : Nat) : Type := (⟨1, ![a]⟩ : Shape).Idx → EReal

/-- Column k of the first, second and third block of 128 among 384 columns. -/
abbrev blk0 (k : Fin 128) : Fin 384 := ⟨k.val, by omega⟩
abbrev blk1 (k : Fin 128) : Fin 384 := ⟨128 + k.val, by omega⟩
abbrev blk2 (k : Fin 128) : Fin 384 := ⟨256 + k.val, by omega⟩

/-- The float words the two programs share: zero (the clamp) and one (in 1 - u). -/
abbrev zeroW : EReal := Ideal.ofBits .f32 0x00000000#32
abbrev oneW : EReal := Ideal.ofBits .f32 0x3F800000#32

theorem oneW_eq : oneW = 1 := by
  show Ideal.ofBits .f32 0x3F800000#32 = 1
  simp [Ideal.ofBits, Ideal.ieee, -EReal.coe_mul]; norm_num

/-- A sum over 384 columns is the sum over its three blocks of 128. -/
theorem sum_three_blocks {M : Type*} [AddCommMonoid M] (f : Fin 384 → M) :
    ∑ k : Fin 384, f k = ((∑ k : Fin 128, f (blk0 k)) + ∑ k : Fin 128, f (blk1 k)) + ∑ k : Fin 128, f (blk2 k) := by
  rw [← Fin.sum_congr' f (show 256 + 128 = 384 from rfl), Fin.sum_univ_add,
    ← Fin.sum_congr' (fun i : Fin 256 => f (Fin.cast (show 256 + 128 = 384 from rfl) (Fin.castAdd 128 i))) (show 128 + 128 = 256 from rfl),
    Fin.sum_univ_add]
  rfl

/-- The hidden layer of the message network at output j: the dense layer over [x, y, z], plus bias, clamped at zero. -/
def hidden (x y z : Fin 128 → EReal) (W1 : Mat 128 384) (b1 : Vc 128) (j : Fin 128) : EReal :=
  max ((((∑ k : Fin 128, x k * W1 (ix2 j (blk0 k))) + ∑ k : Fin 128, y k * W1 (ix2 j (blk1 k)))
    + ∑ k : Fin 128, z k * W1 (ix2 j (blk2 k))) + b1 (ix1 j)) zeroW

/-- The row's message at output j. -/
def message (x y z : Fin 128 → EReal) (W1 : Mat 128 384) (b1 : Vc 128) (W2 : Mat 128 128) (b2 : Vc 128) (j : Fin 128) : EReal :=
  (∑ k : Fin 128, hidden x y z W1 b1 k * W2 (ix2 j k)) + b2 (ix1 j)

/-- A GRU pre-activation at gate column g (of 384) from a vector v of length 128. -/
def gate (v : Fin 128 → EReal) (W : Mat 384 128) (b : Vc 384) (g : Fin 384) : EReal :=
  (∑ k : Fin 128, v k * W (ix2 g k)) + b (ix1 g)

/-- The GRU cell's new memory entry j from the message msg and the old memory row y. -/
def updated (msg y : Fin 128 → EReal) (Wih : Mat 384 128) (bih : Vc 384) (Whh : Mat 384 128) (bhh : Vc 384) (j : Fin 128) : EReal :=
  (oneW - Ideal.logistic (gate msg Wih bih (blk1 j) + gate y Whh bhh (blk1 j)))
      * Ideal.tanh (gate msg Wih bih (blk2 j)
          + Ideal.logistic (gate msg Wih bih (blk0 j) + gate y Whh bhh (blk0 j)) * gate y Whh bhh (blk2 j))
    + Ideal.logistic (gate msg Wih bih (blk1 j) + gate y Whh bhh (blk1 j)) * y j

/-- Row r of a batch array of 128 columns. -/
abbrev rowOf {n : Nat} (A : Mat n 128) (r : Fin n) : Fin 128 → EReal := fun k => A (ix2 r k)

/-- The messages of a whole batch of n rows. -/
def messages {n : Nat} (X Y Z : Mat n 128) (W1 : Mat 128 384) (b1 : Vc 128) (W2 : Mat 128 128) (b2 : Vc 128) : Mat n 128 :=
  fun i => message (rowOf X (i 0)) (rowOf Y (i 0)) (rowOf Z (i 0)) W1 b1 W2 b2 (i 1)

/-- The updated memory rows of a whole batch of n rows. -/
def updates {n : Nat} (X Y Z : Mat n 128) (W1 : Mat 128 384) (b1 : Vc 128) (W2 : Mat 128 128) (b2 : Vc 128)
    (Wih : Mat 384 128) (bih : Vc 384) (Whh : Mat 384 128) (bhh : Vc 384) : Mat n 128 :=
  fun i => updated (message (rowOf X (i 0)) (rowOf Y (i 0)) (rowOf Z (i 0)) W1 b1 W2 b2) (rowOf Y (i 0)) Wih bih Whh bhh (i 1)

end Cert.GruSpec

end
-- ==== Proof.RefRows.lean ====
/-
  The reference program read one batch row at a time.

  The reference gathers the memory rows of the batch (an array y of 100000 rows of 128 columns, kept here as it
  is: the gather is an argument of the specification), joins each row of node features x, memory y and edge
  features z into one row [x, y, z] of 384 columns, and sends it through the message network and a GRU cell.
  This module shows that, entry by entry, the arrays the reference computes are the functions of GruSpec:

    messages_eq   the array of messages is, at row r and column j,
                    sum_k max(dense1(r, k) + b1 k, 0) * W2 (j, k) + b2 j,
                  where dense1(r, k) is the dense layer over the joined row, written as the sum of three sums
                  of length 128 (one per part of the row);
    updates_eq    the array of new memory rows is, at row r and column j,
                    (1 - u) * n + u * y (r, j),   u = logistic(gi1 + gh1),  n = tanh(gi2 + logistic(gi0 + gh0) * gh2),
                  with gi = message(r) Wih^T + bih and gh = y(r) Whh^T + bhh in three blocks of 128 columns.

  The steps: an entry of the joined row is an entry of the part whose span of columns holds it; a product with
  a transposed weight matrix is a sum over the shared index of row entries times weight entries, and a sum over
  384 columns is the sum of the three block sums; a bias is the same in every row; the reference's logistic
  function is one over one plus the exponential of the negation, which is the logistic function by definition
  once the float word for one is read as the number one.
-/
import proofs.«144690_j34033320854152_2_alg».proof.Proof.Gen.ReferenceIdeal.Read
import proofs.«144690_j34033320854152_2_alg».proof.Proof.GruSpec
import Idealize.ShloMosaic.Lib.Pipeline.Value
import Idealize.ShloMosaic.Lib.ValueIdx
import Idealize.ShloMosaic.PureOps.Ideal.Laws

noncomputable section

namespace Cert.ReferenceIdeal.RefRows

open Cert.ReferenceIdeal Cert.ReferenceIdeal.Read Idealize.ShloMosaic Idealize.ShloMosaic.ValueIdx
open Cert.GruSpec (blk0 blk1 blk2 zeroW oneW rowOf hidden message gate updated)

section rows

variable (x0 : (⟨S100000, .i32⟩ : BufTy).Contents (Elt Ideal))
  (x1 : (⟨S100000x128, .f32⟩ : BufTy).Contents (Elt Ideal)) (x2 : (⟨S100000x128, .f32⟩ : BufTy).Contents (Elt Ideal))
  (x4 : (⟨S500000x128, .f32⟩ : BufTy).Contents (Elt Ideal))
  (x6 : (⟨S128x384, .f32⟩ : BufTy).Contents (Elt Ideal)) (x7 : (⟨S128, .f32⟩ : BufTy).Contents (Elt Ideal))
  (x8 : (⟨S128x128, .f32⟩ : BufTy).Contents (Elt Ideal)) (x9 : (⟨S128, .f32⟩ : BufTy).Contents (Elt Ideal))
  (x10 : (⟨S384x128, .f32⟩ : BufTy).Contents (Elt Ideal)) (x11 : (⟨S384, .f32⟩ : BufTy).Contents (Elt Ideal))
  (x12 : (⟨S384x128, .f32⟩ : BufTy).Contents (Elt Ideal)) (x13 : (⟨S384, .f32⟩ : BufTy).Contents (Elt Ideal))

/-! ### The joined row [x, y, z]: each block of 128 columns is one of the three parts -/

/-- Columns 0 to 127 of the joined row are the node features. -/
theorem cat_blk0 (r : Fin 100000) (k : Fin 128) :
    val_main_v7 (F := Ideal) x0 x1 x2 x4 (ix2 r (blk0 k)) = x1 (ix2 r k) := by
  unfold val_main_v7
  exact concatenate_apply_piece 1 _ _ (ix2 r (blk0 k)) 0 (by show (0 : Nat) < 3; decide) S100000x128 x1 rfl rfl 0 rfl (ix2 r k)
    (fun b hb => by match b with | ⟨0, _⟩ => rfl | ⟨1, _⟩ => exact absurd rfl hb) (Nat.zero_add _)

/-- Columns 128 to 255 of the joined row are the gathered memory row. -/
theorem cat_blk1 (r : Fin 100000) (k : Fin 128) :
    val_main_v7 (F := Ideal) x0 x1 x2 x4 (ix2 r (blk1 k)) = val_main_v6 (F := Ideal) x0 x4 (ix2 r k) := by
  unfold val_main_v7
  exact concatenate_apply_piece 1 _ _ (ix2 r (blk1 k)) 1 (by show (1 : Nat) < 3; decide) S100000x128 (val_main_v6 (F := Ideal) x0 x4) rfl rfl 128 rfl (ix2 r k)
    (fun b hb => by match b with | ⟨0, _⟩ => rfl | ⟨1, _⟩ => exact absurd rfl hb) rfl

/-- Columns 256 to 383 of the joined row are the edge features. -/
theorem cat_blk2 (r : Fin 100000) (k : Fin 128) :
    val_main_v7 (F := Ideal) x0 x1 x2 x4 (ix2 r (blk2 k)) = x2 (ix2 r k) := by
  unfold val_main_v7
  exact concatenate_apply_piece 1 _ _ (ix2 r (blk2 k)) 2 (by show (2 : Nat) < 3; decide) S100000x128 x2 rfl rfl 256 rfl (ix2 r k)
    (fun b hb => by match b with | ⟨0, _⟩ => rfl | ⟨1, _⟩ => exact absurd rfl hb) rfl

/-! ### Transposed weights and broadcast biases at an index -/

theorem w1T_at (k : Fin 384) (j : Fin 128) : val_main_v8 (F := Ideal) x6 (ix2 k j) = x6 (ix2 j k) := by
  rw [val_main_v8_apply]; exact congrArg x6 (funext fun a => by match a with | ⟨0, _⟩ => rfl | ⟨1, _⟩ => rfl)

theorem w2T_at (k j : Fin 128) : val_main_v14 (F := Ideal) x8 (ix2 k j) = x8 (ix2 j k) := by
  rw [val_main_v14_apply]; exact congrArg x8 (funext fun a => by match a with | ⟨0, _⟩ => rfl | ⟨1, _⟩ => rfl)

theorem wihT_at (k : Fin 128) (g : Fin 384) : val_main_v19 (F := Ideal) x10 (ix2 k g) = x10 (ix2 g k) := by
  rw [val_main_v19_apply]; exact congrArg x10 (funext fun a => by match a with | ⟨0, _⟩ => rfl | ⟨1, _⟩ => rfl)

theorem whhT_at (k : Fin 128) (g : Fin 384) : val_main_v24 (F := Ideal) x12 (ix2 k g) = x12 (ix2 g k) := by
  rw [val_main_v24_apply]; exact congrArg x12 (funext fun a => by match a with | ⟨0, _⟩ => rfl | ⟨1, _⟩ => rfl)

theorem b1_at (r : Fin 100000) (j : Fin 128) : val_main_v11 (F := Ideal) x7 (ix2 r j) = x7 (ix1 j) := by
  rw [val_main_v11_apply, val_main_v10_apply]; exact congrArg x7 (funext fun a => by match a with | ⟨0, _⟩ => rfl)

theorem b2_at (r : Fin 100000) (j : Fin 128) : val_main_v17 (F := Ideal) x9 (ix2 r j) = x9 (ix1 j) := by
  rw [val_main_v17_apply, val_main_v16_apply]; exact congrArg x9 (funext fun a => by match a with | ⟨0, _⟩ => rfl)

theorem bih_at (r : Fin 100000) (g : Fin 384) : val_main_v22 (F := Ideal) x11 (ix2 r g) = x11 (ix1 g) := by
  rw [val_main_v22_apply, val_main_v21_apply]; exact congrArg x11 (funext fun a => by match a with | ⟨0, _⟩ => rfl)

theorem bhh_at (r : Fin 100000) (g : Fin 384) : val_main_v27 (F := Ideal) x13 (ix2 r g) = x13 (ix1 g) := by
  rw [val_main_v27_apply, val_main_v26_apply]; exact congrArg x13 (funext fun a => by match a with | ⟨0, _⟩ => rfl)

/-! ### The message network at a row -/

/-- The first dense layer at row r and output j: the sum over the 384 columns of the joined row, block by block. -/
theorem dense1_at (r : Fin 100000) (j : Fin 128) :
    val_main_v9 (F := Ideal) x0 x1 x2 x4 x6 (ix2 r j)
      = ((∑ k : Fin 128, x1 (ix2 r k) * x6 (ix2 j (blk0 k)))
          + ∑ k : Fin 128, val_main_v6 (F := Ideal) x0 x4 (ix2 r k) * x6 (ix2 j (blk1 k)))
        + ∑ k : Fin 128, x2 (ix2 r k) * x6 (ix2 j (blk2 k)) := by
  have el : ∀ k : Fin 384, lidx_main_v9 (ix2 r j) k = ix2 r k := fun k => funext fun a => by match a with | ⟨0, _⟩ => rfl | ⟨1, _⟩ => rfl
  have er : ∀ k : Fin 384, ridx_main_v9 (ix2 r j) k = ix2 k j := fun k => funext fun a => by match a with | ⟨0, _⟩ => rfl | ⟨1, _⟩ => rfl
  rw [val_main_v9_apply, Cert.GruSpec.sum_three_blocks]
  simp only [el, er, cat_blk0, cat_blk1, cat_blk2, w1T_at]

/-- The hidden layer at row r and output j. -/
theorem hidden_at (r : Fin 100000) (j : Fin 128) :
    val_main_v13 (F := Ideal) x0 x1 x2 x4 x6 x7 (ix2 r j) = hidden (rowOf x1 r) (rowOf (val_main_v6 (F := Ideal) x0 x4) r) (rowOf x2 r) x6 x7 j := by
  rw [val_main_v13_apply, val_main_v12_apply, dense1_at, b1_at, val_main_call0_v0_apply, val_main_call0_cst_apply]
  rfl

/-- The message at row r and output j. -/
theorem message_at (r : Fin 100000) (j : Fin 128) :
    val_main_v18 (F := Ideal) x0 x1 x2 x4 x6 x7 x8 x9 (ix2 r j) = message (rowOf x1 r) (rowOf (val_main_v6 (F := Ideal) x0 x4) r) (rowOf x2 r) x6 x7 x8 x9 j := by
  have el : ∀ k : Fin 128, lidx_main_v15 (ix2 r j) k = ix2 r k := fun k => funext fun a => by match a with | ⟨0, _⟩ => rfl | ⟨1, _⟩ => rfl
  have er : ∀ k : Fin 128, ridx_main_v15 (ix2 r j) k = ix2 k j := fun k => funext fun a => by match a with | ⟨0, _⟩ => rfl | ⟨1, _⟩ => rfl
  rw [val_main_v18_apply, val_main_v15_apply, b2_at]
  simp only [el, er, hidden_at, w2T_at]
  rfl

/-! ### The GRU cell at a row -/

/-- The input-side pre-activation at row r and gate column g. -/
theorem gi_at (r : Fin 100000) (g : Fin 384) :
    val_main_v23 (F := Ideal) x0 x1 x2 x4 x6 x7 x8 x9 x10 x11 (ix2 r g) = gate (message (rowOf x1 r) (rowOf (val_main_v6 (F := Ideal) x0 x4) r) (rowOf x2 r) x6 x7 x8 x9) x10 x11 g := by
  have el : ∀ k : Fin 128, lidx_main_v20 (ix2 r g) k = ix2 r k := fun k => funext fun a => by match a with | ⟨0, _⟩ => rfl | ⟨1, _⟩ => rfl
  have er : ∀ k : Fin 128, ridx_main_v20 (ix2 r g) k = ix2 k g := fun k => funext fun a => by match a with | ⟨0, _⟩ => rfl | ⟨1, _⟩ => rfl
  rw [val_main_v23_apply, val_main_v20_apply, bih_at]
  simp only [el, er, message_at, wihT_at]
  rfl

/-- The hidden-side pre-activation at row r and gate column g. -/
theorem gh_at (r : Fin 100000) (g : Fin 384) :
    val_main_v28 (F := Ideal) x0 x4 x12 x13 (ix2 r g) = gate (rowOf (val_main_v6 (F := Ideal) x0 x4) r) x12 x13 g := by
  have el : ∀ k : Fin 128, lidx_main_v25 (ix2 r g) k = ix2 r k := fun k => funext fun a => by match a with | ⟨0, _⟩ => rfl | ⟨1, _⟩ => rfl
  have er : ∀ k : Fin 128, ridx_main_v25 (ix2 r g) k = ix2 k g := fun k => funext fun a => by match a with | ⟨0, _⟩ => rfl | ⟨1, _⟩ => rfl
  rw [val_main_v28_apply, val_main_v25_apply, bhh_at]
  simp only [el, er, whhT_at]
  rfl

/-! The six slices of the pre-activations: block b of 128 columns starts at column 128 b. -/
theorem slice_v29 (r : Fin 100000) (j : Fin 128) : idx_main_v29 (ix2 r j) = ix2 r (blk0 j) :=
  funext fun a => by match a with | ⟨0, _⟩ => rfl | ⟨1, _⟩ => rfl
theorem slice_v30 (r : Fin 100000) (j : Fin 128) : idx_main_v30 (ix2 r j) = ix2 r (blk1 j) :=
  funext fun a => by match a with | ⟨0, _⟩ => rfl | ⟨1, _⟩ => rfl
theorem slice_v31 (r : Fin 100000) (j : Fin 128) : idx_main_v31 (ix2 r j) = ix2 r (blk2 j) :=
  funext fun a => by match a with | ⟨0, _⟩ => rfl | ⟨1, _⟩ => rfl
theorem slice_v32 (r : Fin 100000) (j : Fin 128) : idx_main_v32 (ix2 r j) = ix2 r (blk0 j) :=
  funext fun a => by match a with | ⟨0, _⟩ => rfl | ⟨1, _⟩ => rfl
theorem slice_v33 (r : Fin 100000) (j : Fin 128) : idx_main_v33 (ix2 r j) = ix2 r (blk1 j) :=
  funext fun a => by match a with | ⟨0, _⟩ => rfl | ⟨1, _⟩ => rfl
theorem slice_v34 (r : Fin 100000) (j : Fin 128) : idx_main_v34 (ix2 r j) = ix2 r (blk2 j) :=
  funext fun a => by match a with | ⟨0, _⟩ => rfl | ⟨1, _⟩ => rfl

/-- One over one plus the exponential of the negation, with the float word for one, is the logistic function. -/
theorem logistic_word (x : EReal) : Ideal.div oneW (oneW + Ideal.exp (-x)) = Ideal.logistic x := by
  rw [Cert.GruSpec.oneW_eq]; rfl

/-- The reset gate at row r and column j. -/
theorem reset_at (r : Fin 100000) (j : Fin 128) :
    val_main_v41 (F := Ideal) x0 x1 x2 x4 x6 x7 x8 x9 x10 x11 x12 x13 (ix2 r j) = Ideal.logistic (gate (message (rowOf x1 r) (rowOf (val_main_v6 (F := Ideal) x0 x4) r) (rowOf x2 r) x6 x7 x8 x9) x10 x11 (blk0 j) + gate (rowOf (val_main_v6 (F := Ideal) x0 x4) r) x12 x13 (blk0 j)) := by
  rw [val_main_v41_apply, val_main_v40_apply, val_main_cst_1_apply, val_main_v39_apply, val_main_v38_apply,
    val_main_cst_apply, val_main_v37_apply, val_main_v36_apply, val_main_v35_apply, val_main_v29_apply,
    val_main_v32_apply, slice_v29, slice_v32, gi_at, gh_at]
  exact logistic_word _

/-- The update gate at row r and column j. -/
theorem update_at (r : Fin 100000) (j : Fin 128) :
    val_main_v48 (F := Ideal) x0 x1 x2 x4 x6 x7 x8 x9 x10 x11 x12 x13 (ix2 r j) = Ideal.logistic (gate (message (rowOf x1 r) (rowOf (val_main_v6 (F := Ideal) x0 x4) r) (rowOf x2 r) x6 x7 x8 x9) x10 x11 (blk1 j) + gate (rowOf (val_main_v6 (F := Ideal) x0 x4) r) x12 x13 (blk1 j)) := by
  rw [val_main_v48_apply, val_main_v47_apply, val_main_cst_3_apply, val_main_v46_apply, val_main_v45_apply,
    val_main_cst_2_apply, val_main_v44_apply, val_main_v43_apply, val_main_v42_apply, val_main_v30_apply,
    val_main_v33_apply, slice_v30, slice_v33, gi_at, gh_at]
  exact logistic_word _

/-- The candidate at row r and column j. -/
theorem cand_at (r : Fin 100000) (j : Fin 128) :
    val_main_v51 (F := Ideal) x0 x1 x2 x4 x6 x7 x8 x9 x10 x11 x12 x13 (ix2 r j)
      = Ideal.tanh (gate (message (rowOf x1 r) (rowOf (val_main_v6 (F := Ideal) x0 x4) r) (rowOf x2 r) x6 x7 x8 x9) x10 x11 (blk2 j) + Ideal.logistic (gate (message (rowOf x1 r) (rowOf (val_main_v6 (F := Ideal) x0 x4) r) (rowOf x2 r) x6 x7 x8 x9) x10 x11 (blk0 j) + gate (rowOf (val_main_v6 (F := Ideal) x0 x4) r) x12 x13 (blk0 j)) * gate (rowOf (val_main_v6 (F := Ideal) x0 x4) r) x12 x13 (blk2 j)) := by
  rw [val_main_v51_apply, val_main_v50_apply, val_main_v31_apply, val_main_v49_apply, reset_at,
    val_main_v34_apply, slice_v31, slice_v34, gi_at, gh_at]
  rfl

/-- The new memory entry at row r and column j. -/
theorem updated_at (r : Fin 100000) (j : Fin 128) :
    val_main_v56 (F := Ideal) x0 x1 x2 x4 x6 x7 x8 x9 x10 x11 x12 x13 (ix2 r j) = updated (message (rowOf x1 r) (rowOf (val_main_v6 (F := Ideal) x0 x4) r) (rowOf x2 r) x6 x7 x8 x9) (rowOf (val_main_v6 (F := Ideal) x0 x4) r) x10 x11 x12 x13 j := by
  rw [val_main_v56_apply, val_main_v54_apply, val_main_v53_apply, val_main_v52_apply, val_main_cst_4_apply,
    val_main_v55_apply, update_at, cand_at]
  rfl

end rows

/-- The reference's array of messages is the specification's, entry by entry. -/
theorem messages_eq (x0 : (⟨S100000, .i32⟩ : BufTy).Contents (Elt Ideal)) (x1 : (⟨S100000x128, .f32⟩ : BufTy).Contents (Elt Ideal)) (x2 : (⟨S100000x128, .f32⟩ : BufTy).Contents (Elt Ideal)) (x4 : (⟨S500000x128, .f32⟩ : BufTy).Contents (Elt Ideal)) (x6 : (⟨S128x384, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) :
    val_main_v18 (F := Ideal) x0 x1 x2 x4 x6 x7 x8 x9 = Cert.GruSpec.messages x1 (val_main_v6 (F := Ideal) x0 x4) x2 x6 x7 x8 x9 := by
  funext i
  obtain ⟨r, j, rfl⟩ : ∃ (r : Fin 100000) (j : Fin 128), i = ix2 r j := ⟨i 0, i 1, eq_ix2 i⟩
  exact message_at x0 x1 x2 x4 x6 x7 x8 x9 r j

/-- The reference's array of new memory rows is the specification's, entry by entry. -/
theorem updates_eq (x0 : (⟨S100000, .i32⟩ : BufTy).Contents (Elt Ideal)) (x1 : (⟨S100000x128, .f32⟩ : BufTy).Contents (Elt Ideal)) (x2 : (⟨S100000x128, .f32⟩ : BufTy).Contents (Elt Ideal)) (x4 : (⟨S500000x128, .f32⟩ : BufTy).Contents (Elt Ideal)) (x6 : (⟨S128x384, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S384x128, .f32⟩ : BufTy).Contents (Elt Ideal)) (x11 : (⟨S384, .f32⟩ : BufTy).Contents (Elt Ideal)) (x12 : (⟨S384x128, .f32⟩ : BufTy).Contents (Elt Ideal)) (x13 : (⟨S384, .f32⟩ : BufTy).Contents (Elt Ideal)) :
    val_main_v56 (F := Ideal) x0 x1 x2 x4 x6 x7 x8 x9 x10 x11 x12 x13 = Cert.GruSpec.updates x1 (val_main_v6 (F := Ideal) x0 x4) x2 x6 x7 x8 x9 x10 x11 x12 x13 := by
  funext i
  obtain ⟨r, j, rfl⟩ : ∃ (r : Fin 100000) (j : Fin 128), i = ix2 r j := ⟨i 0, i 1, eq_ix2 i⟩
  exact updated_at x0 x1 x2 x4 x6 x7 x8 x9 x10 x11 x12 x13 r j

end Cert.ReferenceIdeal.RefRows

end
-- ==== Proof.KernelRow.lean ====
/-
  The kernel body's two stored values, read at one entry (p, q) of a block of 2000 batch rows.

  The body computes, for every row p of its block, the row's message (two dense layers with a clamp at
  zero between them, the first dense layer as three matrix products, one per part of the row) and the GRU
  cell's new memory row. Each matrix product into a zero accumulator is a plain sum over the 128
  contracted columns; a bias enters as one row broadcast over the 2000 rows; the three GRU gates are the
  three column blocks of 128 of a 384-wide pre-activation. Read at (p, q), the first stored value is the
  specification's message of row p at q and the second is its updated memory entry, whatever arrays the
  weight blocks are cut from: the lemmas take, as hypotheses, how each weight block's entries are entries
  of a weight matrix in the layout the specification uses (one row per output).
-/
import proofs.«144690_j34033320854152_2_alg».proof.Proof.Gen.KernelIdeal.Skeleton
import proofs.«144690_j34033320854152_2_alg».proof.Proof.GruSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RowValue

open Cert.KernelIdeal Cert.KernelIdeal.Gen Idealize.ShloMosaic Idealize.ShloMosaic.ValueIdx Cert.GruSpec

theorem mm128_lhs0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem mm128_rhs1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A matrix product into a zero accumulator at entry (p, q): the sum over the 128 contracted columns of the left
    operand's row p times the right operand's column q. -/
theorem mm128_apply (a : FVec Ideal S2000x128 .bf16) (b : FVec Ideal S128x128 .bf16) (p : Fin 2000) (q : Fin 128) :
    matmul dot_S2000x128_S128x128_S2000x128_1_0_0_1_n_n none a b (constant (F := Ideal) S2000x128 .f32 0x00000000#32) (ix2 p q) = ∑ k : Fin 128, a (ix2 p k) * b (ix2 k q) := by
  refine (Ideal.matmul_constant_zero_apply dot_S2000x128_S128x128_S2000x128_1_0_0_1_n_n none a b (ix2 p q)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact mm128_lhs0 _ _
    | ⟨1, _⟩ => exact (dot_S2000x128_S128x128_S2000x128_1_0_0_1_n_n.lhsIdx_val_of_single rfl (ix2 p q) _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (dot_S2000x128_S128x128_S2000x128_1_0_0_1_n_n.rhsIdx_val_of_single rfl (ix2 p q) _).trans hk
    | ⟨1, _⟩ => exact mm128_rhs1 _ _)
  rw [el, er]

theorem mm384_lhs0 (i : S2000x384.Idx) (q : dot_S2000x128_S128x384_S2000x384_1_0_0_1_n_n.contr.Idx) :
    (dot_S2000x128_S128x384_S2000x384_1_0_0_1_n_n.lhsIdx i q 0).val = (i 0).val := by
  unfold DotDims.lhsIdx
  rw [dif_neg (show ¬(0 : Fin S2000x128.rank) ∈ dot_S2000x128_S128x384_S2000x384_1_0_0_1_n_n.lhsBatch by decide), dif_pos (show (0 : Fin S2000x128.rank) ∈ dot_S2000x128_S128x384_S2000x384_1_0_0_1_n_n.lhsNonContracting by decide)]
  rfl
theorem mm384_rhs1 (i : S2000x384.Idx) (q : dot_S2000x128_S128x384_S2000x384_1_0_0_1_n_n.contr.Idx) :
    (dot_S2000x128_S128x384_S2000x384_1_0_0_1_n_n.rhsIdx i q 1).val = (i 1).val := by
  unfold DotDims.rhsIdx
  rw [dif_neg (show ¬(1 : Fin S128x384.rank) ∈ dot_S2000x128_S128x384_S2000x384_1_0_0_1_n_n.rhsBatch by decide), dif_pos (show (1 : Fin S128x384.rank) ∈ dot_S2000x128_S128x384_S2000x384_1_0_0_1_n_n.rhsNonContracting by decide)]
  rfl

/-- A matrix product into a zero accumulator at entry (p, q): the sum over the 128 contracted columns of the left
    operand's row p times the right operand's column q. -/
theorem mm384_apply (a : FVec Ideal S2000x128 .bf16) (b : FVec Ideal S128x384 .bf16) (p : Fin 2000) (q : Fin 384) :
    matmul dot_S2000x128_S128x384_S2000x384_1_0_0_1_n_n none a b (constant (F := Ideal) S2000x384 .f32 0x00000000#32) (ix2 p q) = ∑ k : Fin 128, a (ix2 p k) * b (ix2 k q) := by
  refine (Ideal.matmul_constant_zero_apply dot_S2000x128_S128x384_S2000x384_1_0_0_1_n_n none a b (ix2 p q)).trans ?_
  rw [← Equiv.sum_comp (ValueIdx.contrEquiv1 dot_S2000x128_S128x384_S2000x384_1_0_0_1_n_n 128 rfl rfl).symm]
  refine Finset.sum_congr rfl fun k _ => ?_
  have hk := ValueIdx.contrEquiv1_symm_val dot_S2000x128_S128x384_S2000x384_1_0_0_1_n_n 128 rfl rfl k
  have el : dot_S2000x128_S128x384_S2000x384_1_0_0_1_n_n.lhsIdx (ix2 p q) ((ValueIdx.contrEquiv1 dot_S2000x128_S128x384_S2000x384_1_0_0_1_n_n 128 rfl rfl).symm k) = ix2 p k := funext fun a => Fin.ext (by
    match a with
    | ⟨0, _⟩ => exact mm384_lhs0 _ _
    | ⟨1, _⟩ => exact (dot_S2000x128_S128x384_S2000x384_1_0_0_1_n_n.lhsIdx_val_of_single rfl (ix2 p q) _).trans hk)
  have er : dot_S2000x128_S128x384_S2000x384_1_0_0_1_n_n.rhsIdx (ix2 p q) ((ValueIdx.contrEquiv1 dot_S2000x128_S128x384_S2000x384_1_0_0_1_n_n 128 rfl rfl).symm k) = ix2 k q := funext fun a => Fin.ext (by
    match a with
    | ⟨0, _⟩ => exact (dot_S2000x128_S128x384_S2000x384_1_0_0_1_n_n.rhsIdx_val_of_single rfl (ix2 p q) _).trans hk
    | ⟨1, _⟩ => exact mm384_rhs1 _ _)
  rw [el, er]

/-- A bias vector of length 128 laid as one row and broadcast over the 2000 rows reads, at (p, q), the bias at q. -/
theorem bias128_apply {α : Type} (b : S128.Idx → α) (p : Fin 2000) (q : Fin 128) :
    broadcastTo S2000x128 (shapeCast S1x128 b shapeCasts_S128_S1x128) broadcasts_S1x128_S2000x128 (ix2 p q) = b (ix1 q) := by
  rw [broadcastTo_1b_ab_apply, shapeCast_a_1a_apply]

/-- The same for a bias of length 384. -/
theorem bias384_apply {α : Type} (b : S384.Idx → α) (p : Fin 2000) (g : Fin 384) :
    broadcastTo S2000x384 (shapeCast S1x384 b shapeCasts_S384_S1x384) broadcasts_S1x384_S2000x384 (ix2 p g) = b (ix1 g) := by
  rw [broadcastTo_1b_ab_apply, shapeCast_a_1a_apply]

/-- The three GRU gates are the three column blocks of 128 of a 384-wide array. -/
theorem gateBlock0 (v : FVec Ideal S2000x384 .f32) (p : Fin 2000) (q : Fin 128) :
    extractStridedSlice S2000x128 ![0, 0] v slices_S2000x384_o0_0_S2000x128 (ix2 p q) = v (ix2 p (blk0 q)) :=
  slice2_axis1_apply 0 v _ p q (blk0 q) (Nat.zero_add _).symm
theorem gateBlock1 (v : FVec Ideal S2000x384 .f32) (p : Fin 2000) (q : Fin 128) :
    extractStridedSlice S2000x128 ![0, 128] v slices_S2000x384_o0_128_S2000x128 (ix2 p q) = v (ix2 p (blk1 q)) :=
  slice2_axis1_apply 128 v _ p q (blk1 q) rfl
theorem gateBlock2 (v : FVec Ideal S2000x384 .f32) (p : Fin 2000) (q : Fin 128) :
    extractStridedSlice S2000x128 ![0, 256] v slices_S2000x384_o0_256_S2000x128 (ix2 p q) = v (ix2 p (blk2 q)) :=
  slice2_axis1_apply 256 v _ p q (blk2 q) rfl

/-- The logistic function and the hyperbolic tangent act entry by entry. -/
theorem logistic_at {s : Shape} (a : FVec Ideal s .f32) (i : s.Idx) : logistic a i = Ideal.logistic (a i) := rfl
theorem tanh_at {s : Shape} (a : FVec Ideal s .f32) (i : s.Idx) : tanh a i = Ideal.tanh (a i) := rfl

/-- The first stored value at (p, q) is the message of row p at q: the weight blocks are the three column blocks of W1
    transposed (h3, h4, h5), W2 transposed (h7), and the biases as they are (h6, h8). -/
theorem message_at (x0 x1 x2 : Vec Ideal S2000x128 .f32) (x3 x4 x5 : Vec Ideal S128x128 .bf16) (x6 : Vec Ideal S128 .f32)
    (x7 : Vec Ideal S128x128 .bf16) (x8 : Vec Ideal S128 .f32)
    (W1 : Mat 128 384) (b1 : Vc 128) (W2 : Mat 128 128) (b2 : Vc 128)
    (h3 : ∀ k j : Fin 128, x3 (ix2 k j) = W1 (ix2 j (blk0 k)))
    (h4 : ∀ k j : Fin 128, x4 (ix2 k j) = W1 (ix2 j (blk1 k)))
    (h5 : ∀ k j : Fin 128, x5 (ix2 k j) = W1 (ix2 j (blk2 k)))
    (h6 : ∀ j : Fin 128, x6 (ix1 j) = b1 (ix1 j))
    (h7 : ∀ k j : Fin 128, x7 (ix2 k j) = W2 (ix2 j k))
    (h8 : ∀ j : Fin 128, x8 (ix1 j) = b2 (ix1 j))
    (p : Fin 2000) (q : Fin 128) :
    k0_pay4 x0 x1 x2 x3 x4 x5 x6 x7 x8 (ix2 p q)
      = message (fun k => x0 (ix2 p k)) (fun k => x1 (ix2 p k)) (fun k => x2 (ix2 p k)) W1 b1 W2 b2 q := by
  unfold k0_pay4 k0_pay3 k0_pay2 message Cert.GruSpec.hidden
  simp only [addf_apply, maximumf_apply, truncf_apply, broadcast_apply, shapeCast_self, mm128_apply, bias128_apply,
    h3, h4, h5, h6, h7, h8]
  rfl

/-- The second stored value at (p, q) is the GRU cell's new memory entry of row p at q, from the row's message and
    its old memory row; the gate weights are Wih and Whh transposed (h9, h11). -/
theorem update_at (x0 x1 x2 : Vec Ideal S2000x128 .f32) (x3 x4 x5 : Vec Ideal S128x128 .bf16) (x6 : Vec Ideal S128 .f32)
    (x7 : Vec Ideal S128x128 .bf16) (x8 : Vec Ideal S128 .f32)
    (x9 : Vec Ideal S128x384 .bf16) (x10 : Vec Ideal S384 .f32) (x11 : Vec Ideal S128x384 .bf16) (x12 : Vec Ideal S384 .f32)
    (W1 : Mat 128 384) (b1 : Vc 128) (W2 : Mat 128 128) (b2 : Vc 128)
    (Wih : Mat 384 128) (bih : Vc 384) (Whh : Mat 384 128) (bhh : Vc 384)
    (h3 : ∀ k j : Fin 128, x3 (ix2 k j) = W1 (ix2 j (blk0 k)))
    (h4 : ∀ k j : Fin 128, x4 (ix2 k j) = W1 (ix2 j (blk1 k)))
    (h5 : ∀ k j : Fin 128, x5 (ix2 k j) = W1 (ix2 j (blk2 k)))
    (h6 : ∀ j : Fin 128, x6 (ix1 j) = b1 (ix1 j))
    (h7 : ∀ k j : Fin 128, x7 (ix2 k j) = W2 (ix2 j k))
    (h8 : ∀ j : Fin 128, x8 (ix1 j) = b2 (ix1 j))
    (h9 : ∀ (k : Fin 128) (g : Fin 384), x9 (ix2 k g) = Wih (ix2 g k))
    (h10 : ∀ g : Fin 384, x10 (ix1 g) = bih (ix1 g))
    (h11 : ∀ (k : Fin 128) (g : Fin 384), x11 (ix2 k g) = Whh (ix2 g k))
    (h12 : ∀ g : Fin 384, x12 (ix1 g) = bhh (ix1 g))
    (p : Fin 2000) (q : Fin 128) :
    k0_pay1 (k0_pay2 x1) (k0_pay3 x1) (k0_pay5 x0 x1 x2 x3 x4 x5 x6 x7 x8) (k0_pay6 x9)
        (constant (F := Ideal) S2000x384 .f32 0x00000000#32) x10 x11 x12 (ix2 p q)
      = updated (message (fun k => x0 (ix2 p k)) (fun k => x1 (ix2 p k)) (fun k => x2 (ix2 p k)) W1 b1 W2 b2)
          (fun k => x1 (ix2 p k)) Wih bih Whh bhh q := by
  unfold k0_pay1 k0_pay5 k0_pay6 k0_pay3 k0_pay2 updated gate
  simp only [addf_apply, mulf_apply, subf_apply, truncf_apply, broadcast_apply, shapeCast_self, logistic_at, tanh_at,
    gateBlock0, gateBlock1, gateBlock2, mm384_apply, bias384_apply,
    message_at x0 x1 x2 x3 x4 x5 x6 x7 x8 W1 b1 W2 b2 h3 h4 h5 h6 h7 h8, h9, h10, h11, h12]
  rfl

end Cert.KernelIdeal.RowValue

end
-- ==== Proof.KernelHost.lean ====
/-
  What the kernel program's host operations leave in the arrays the region reads.

  Before its one region the kernel program prepares its operands on the host: it gathers the batch's memory rows
  from the memory table, and it lays each weight matrix out for a product from the left, that is, transposed
  (and converted to the 16-bit float format, which changes no ideal value). The first weight matrix W1, of 128
  rows and 384 columns, becomes a matrix of 384 rows and 128 columns, cut into three matrices of 128 rows: rows 0
  to 127, 128 to 255 and 256 to 383. So entry (k, j) of the three cuts is entry (j, k), (j, 128 + k) and
  (j, 256 + k) of W1; entry (k, j) of the prepared W2 is entry (j, k) of W2; entry (k, g) of the prepared Wih and
  Whh is entry (g, k) of Wih and Whh. The gathered rows are named as the gather of the memory table at the
  normalised indices (a negative index is counted from the end), and the gather itself is not looked into.

  Each statement reads the array as the region finds it, as an entry of an argument array as launched.
-/
import proofs.«144690_j34033320854152_2_alg».proof.Proof.Gen.KernelIdeal.Frame
import proofs.«144690_j34033320854152_2_alg».proof.Proof.GruSpec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.HostValue

open Cert.KernelIdeal Cert.KernelIdeal.Gen Idealize.ShloMosaic Idealize.ShloMosaic.TcCoe Idealize.ShloMosaic.ValueIdx Idealize.SL.Sem Cert.GruSpec

variable (m : (ℓ : Loc nD τ sig) → Buf (Elt Ideal) ℓ) (c : Dev nD)

/-! ### The arrays as terms over the launch contents -/

/-- Rows 0 to 127 of the transposed first weight matrix. -/
theorem w1a_term : (V m c main_call0_v9 : S128x128.Idx → EReal)
    = extractStridedSlice S128x128 ![0, 0] (truncf (F := Ideal) .bf16 (transpose S384x128 [1, 0] ((m ((c : Thread nD τ).loc main_arg6)) : S128x384.Idx → EReal) transposes_S128x384_S384x128_1_0) bitsLt_bf16_f32) slices_S384x128_S128x128_0_0 := by
  show StableHlo.after hostOps0 (fun b => m (c, b)) (Proc.devRef .tc main_call0_v9) = _
  after_results_simp
  rfl

/-- Rows 128 to 255 of the transposed first weight matrix. -/
theorem w1b_term : (V m c main_call0_v10 : S128x128.Idx → EReal)
    = extractStridedSlice S128x128 ![128, 0] (truncf (F := Ideal) .bf16 (transpose S384x128 [1, 0] ((m ((c : Thread nD τ).loc main_arg6)) : S128x384.Idx → EReal) transposes_S128x384_S384x128_1_0) bitsLt_bf16_f32) slices_S384x128_S128x128_128_0 := by
  show StableHlo.after hostOps0 (fun b => m (c, b)) (Proc.devRef .tc main_call0_v10) = _
  after_results_simp
  rfl

/-- Rows 256 to 383 of the transposed first weight matrix. -/
theorem w1c_term : (V m c main_call0_v11 : S128x128.Idx → EReal)
    = extractStridedSlice S128x128 ![256, 0] (truncf (F := Ideal) .bf16 (transpose S384x128 [1, 0] ((m ((c : Thread nD τ).loc main_arg6)) : S128x384.Idx → EReal) transposes_S128x384_S384x128_1_0) bitsLt_bf16_f32) slices_S384x128_S128x128_256_0 := by
  show StableHlo.after hostOps0 (fun b => m (c, b)) (Proc.devRef .tc main_call0_v11) = _
  after_results_simp
  rfl

/-- The transposed second weight matrix. -/
theorem w2t_term : (V m c main_call0_v13 : S128x128.Idx → EReal)
    = (truncf (F := Ideal) .bf16 (transpose S128x128 [1, 0] ((m ((c : Thread nD τ).loc main_arg8)) : S128x128.Idx → EReal) transposes_S128x128_S128x128_1_0) bitsLt_bf16_f32) := by
  show StableHlo.after hostOps0 (fun b => m (c, b)) (Proc.devRef .tc main_call0_v13) = _
  after_results_simp
  rfl

/-- The transposed input-side GRU weights. -/
theorem wiht_term : (V m c main_call0_v15 : S128x384.Idx → EReal)
    = (truncf (F := Ideal) .bf16 (transpose S128x384 [1, 0] ((m ((c : Thread nD τ).loc main_arg10)) : S384x128.Idx → EReal) transposes_S384x128_S128x384_1_0) bitsLt_bf16_f32) := by
  show StableHlo.after hostOps0 (fun b => m (c, b)) (Proc.devRef .tc main_call0_v15) = _
  after_results_simp
  rfl

/-- The transposed hidden-side GRU weights. -/
theorem whht_term : (V m c main_call0_v17 : S128x384.Idx → EReal)
    = (truncf (F := Ideal) .bf16 (transpose S128x384 [1, 0] ((m ((c : Thread nD τ).loc main_arg12)) : S384x128.Idx → EReal) transposes_S384x128_S128x384_1_0) bitsLt_bf16_f32) := by
  show StableHlo.after hostOps0 (fun b => m (c, b)) (Proc.devRef .tc main_call0_v17) = _
  after_results_simp
  rfl

/-! ### The arrays at an entry -/

/-- Entry (k, j) of the first cut is entry (j, k) of W1. -/
theorem w1a_at (k j : Fin 128) :
    (V m c main_call0_v9 : S128x128.Idx → EReal) (ix2 k j) = ((m ((c : Thread nD τ).loc main_arg6)) : S128x384.Idx → EReal) (ix2 j (blk0 k)) := by
  rw [w1a_term, slice2_axis0_apply 0 _ _ k j (blk0 k) (Nat.zero_add _).symm, truncf_apply, transpose_ix2_apply]

/-- Entry (k, j) of the second cut is entry (j, 128 + k) of W1. -/
theorem w1b_at (k j : Fin 128) :
    (V m c main_call0_v10 : S128x128.Idx → EReal) (ix2 k j) = ((m ((c : Thread nD τ).loc main_arg6)) : S128x384.Idx → EReal) (ix2 j (blk1 k)) := by
  rw [w1b_term, slice2_axis0_apply 128 _ _ k j (blk1 k) rfl, truncf_apply, transpose_ix2_apply]

/-- Entry (k, j) of the third cut is entry (j, 256 + k) of W1. -/
theorem w1c_at (k j : Fin 128) :
    (V m c main_call0_v11 : S128x128.Idx → EReal) (ix2 k j) = ((m ((c : Thread nD τ).loc main_arg6)) : S128x384.Idx → EReal) (ix2 j (blk2 k)) := by
  rw [w1c_term, slice2_axis0_apply 256 _ _ k j (blk2 k) rfl, truncf_apply, transpose_ix2_apply]

/-- Entry (k, j) of the prepared W2 is entry (j, k) of W2. -/
theorem w2t_at (k j : Fin 128) :
    (V m c main_call0_v13 : S128x128.Idx → EReal) (ix2 k j) = ((m ((c : Thread nD τ).loc main_arg8)) : S128x128.Idx → EReal) (ix2 j k) := by
  rw [w2t_term, truncf_apply, transpose_ix2_apply]

/-- Entry (k, g) of the prepared Wih is entry (g, k) of Wih. -/
theorem wiht_at (k : Fin 128) (g : Fin 384) :
    (V m c main_call0_v15 : S128x384.Idx → EReal) (ix2 k g) = ((m ((c : Thread nD τ).loc main_arg10)) : S384x128.Idx → EReal) (ix2 g k) := by
  rw [wiht_term, truncf_apply, transpose_ix2_apply]

/-- Entry (k, g) of the prepared Whh is entry (g, k) of Whh. -/
theorem whht_at (k : Fin 128) (g : Fin 384) :
    (V m c main_call0_v17 : S128x384.Idx → EReal) (ix2 k g) = ((m ((c : Thread nD τ).loc main_arg12)) : S384x128.Idx → EReal) (ix2 g k) := by
  rw [whht_term, truncf_apply, transpose_ix2_apply]

/-! ### The gathered memory rows -/

/-- The gathered rows are the gather of the memory table at the normalised indices. -/
theorem memRows_eq : (V m c main_call0_v6 : S100000x128.Idx → EReal)
    = Host.gather gather_S500000x128_S100000x1_S100000x128_1_0_n_n_0_1_1128 ((m ((c : Thread nD τ).loc main_arg4)) : S500000x128.Idx → EReal)
        (broadcastInDim S100000x1 ![0] bcast_S100000_S100000x1_0
          (select (cmpi .slt ((m ((c : Thread nD τ).loc main_arg0)) : IVec S100000 32) (broadcastInDim S100000 ![] bcast_S_S100000 (constantI S_ 32 0#32)))
            (addi ((m ((c : Thread nD τ).loc main_arg0)) : IVec S100000 32) (broadcastInDim S100000 ![] bcast_S_S100000 (constantI S_ 32 500000#32)))
            ((m ((c : Thread nD τ).loc main_arg0)) : IVec S100000 32))) := by
  show StableHlo.after hostOps0 (fun b => m (c, b)) (Proc.devRef .tc main_call0_v6) = _
  after_results_simp
  rfl

end Cert.KernelIdeal.HostValue

end
-- ==== Proof.KernelBlocks.lean ====
/-
  From the blocks the kernel writes back to the two whole output arrays.

  The grid has 50 points; point t stages rows 2000 t .. 2000 t + 1999 of the three batch inputs (node
  features, gathered memory rows, edge features) and the whole of every weight block and bias, and
  writes back rows 2000 t .. 2000 t + 1999 of the messages and of the updated memory rows. So entry
  (p, q) of point t's block is entry (2000 t + p, q) of the array, the 50 blocks tile the 100000 rows
  (row r lies in the block of point r / 2000), and each output array ends as the specification's
  whole-batch function of the arrays the region found.
-/
import proofs.«144690_j34033320854152_2_alg».proof.Proof.Gen.KernelIdeal.Frame
import proofs.«144690_j34033320854152_2_alg».proof.Proof.KernelRow
import proofs.«144690_j34033320854152_2_alg».proof.Proof.KernelHost
import Idealize.ShloMosaic.Lib.Pipeline.Value

set_option maxRecDepth 16384

noncomputable section

namespace Cert.KernelIdeal.BlockValue

open Cert.KernelIdeal Cert.KernelIdeal.Gen Idealize.ShloMosaic Idealize.ShloMosaic.TcCoe Idealize.ShloMosaic.ValueIdx
open Idealize.SL.Sem Cert.GruSpec Cert.KernelIdeal.RowValue Cert.KernelIdeal.HostValue
open Idealize.ShloMosaic.Pipeline (Dat)

variable (m : (ℓ : Loc nD τ sig) → Buf (Elt Ideal) ℓ)

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the grid: the batch windows and the two outputs move one block of rows per
    point; every weight block and bias stays at block 0. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_13.index t (0 : Fin 2) = t.val ∧ win0_13.index t (1 : Fin 2) = 0
    ∧ win0_14.index t (0 : Fin 2) = t.val ∧ win0_14.index t (1 : Fin 2) = 0 :=
  (by decide +kernel : ∀ t : Fin grid0.N, _)

theorem idx_resident : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = 0 ∧ win0_9.index t (1 : Fin 2) = 0
    ∧ win0_10.index t (0 : Fin 1) = 0
    ∧ win0_11.index t (0 : Fin 2) = 0 ∧ win0_11.index t (1 : Fin 2) = 0
    ∧ win0_12.index t (0 : Fin 1) = 0 :=
  (by decide +kernel : ∀ t : Fin grid0.N, _)

/-- The batch row that row p of point t's block is. -/
def rowAt (t : Fin cfg0.N) (p : Fin 2000) : Fin 100000 :=
  ⟨t.val * 2000 + p.val, by have h := t.isLt; have hN : cfg0.N = 50 := N_0; have hp := p.isLt; omega⟩

/-! ## Each window's block at a point, read at an entry, is an entry of the window's array -/

theorem rowBlock0 (c : Dev nD) (t : Fin cfg0.N) (p : Fin 2000) (k : Fin 128) :
    iblk m c 0 t (ix2 p k) = V m c main_arg1 (ix2 (rowAt t p) k) := by
  obtain ⟨e0, e1, e2, e3, e4, e5, e6, e7, e8, e9⟩ := idx_rows t
  show V m c main_arg1 (((cfg0.win 0).blk t).view.emb (ix2 p k)) = _
  refine congrArg _ (funext fun a => Fin.ext ?_)
  match a with
  | ⟨0, _⟩ => show win0_0.index t (0 : Fin 2) * 2000 + 1 * p.val = t.val * 2000 + p.val; omega
  | ⟨1, _⟩ => show win0_0.index t (1 : Fin 2) * 128 + 1 * k.val = k.val; omega

theorem rowBlock1 (c : Dev nD) (t : Fin cfg0.N) (p : Fin 2000) (k : Fin 128) :
    iblk m c 1 t (ix2 p k) = V m c main_call0_v6 (ix2 (rowAt t p) k) := by
  obtain ⟨e0, e1, e2, e3, e4, e5, e6, e7, e8, e9⟩ := idx_rows t
  show V m c main_call0_v6 (((cfg0.win 1).blk t).view.emb (ix2 p k)) = _
  refine congrArg _ (funext fun a => Fin.ext ?_)
  match a with
  | ⟨0, _⟩ => show win0_1.index t (0 : Fin 2) * 2000 + 1 * p.val = t.val * 2000 + p.val; omega
  | ⟨1, _⟩ => show win0_1.index t (1 : Fin 2) * 128 + 1 * k.val = k.val; omega

theorem rowBlock2 (c : Dev nD) (t : Fin cfg0.N) (p : Fin 2000) (k : Fin 128) :
    iblk m c 2 t (ix2 p k) = V m c main_arg2 (ix2 (rowAt t p) k) := by
  obtain ⟨e0, e1, e2, e3, e4, e5, e6, e7, e8, e9⟩ := idx_rows t
  show V m c main_arg2 (((cfg0.win 2).blk t).view.emb (ix2 p k)) = _
  refine congrArg _ (funext fun a => Fin.ext ?_)
  match a with
  | ⟨0, _⟩ => show win0_2.index t (0 : Fin 2) * 2000 + 1 * p.val = t.val * 2000 + p.val; omega
  | ⟨1, _⟩ => show win0_2.index t (1 : Fin 2) * 128 + 1 * k.val = k.val; omega

theorem matBlock3 (c : Dev nD) (t : Fin cfg0.N) (k : Fin 128) (j : Fin 128) :
    iblk m c 3 t (ix2 k j) = V m c main_call0_v9 (ix2 k j) := by
  obtain ⟨e3a, e3b, e4a, e4b, e5a, e5b, e6, e7a, e7b, e8, e9a, e9b, e10, e11a, e11b, e12⟩ := idx_resident t
  show V m c main_call0_v9 (((cfg0.win 3).blk t).view.emb (ix2 k j)) = _
  refine congrArg _ (funext fun a => Fin.ext ?_)
  match a with
  | ⟨0, _⟩ => show win0_3.index t (0 : Fin 2) * 128 + 1 * k.val = k.val; omega
  | ⟨1, _⟩ => show win0_3.index t (1 : Fin 2) * 128 + 1 * j.val = j.val; omega

theorem matBlock4 (c : Dev nD) (t : Fin cfg0.N) (k : Fin 128) (j : Fin 128) :
    iblk m c 4 t (ix2 k j) = V m c main_call0_v10 (ix2 k j) := by
  obtain ⟨e3a, e3b, e4a, e4b, e5a, e5b, e6, e7a, e7b, e8, e9a, e9b, e10, e11a, e11b, e12⟩ := idx_resident t
  show V m c main_call0_v10 (((cfg0.win 4).blk t).view.emb (ix2 k j)) = _
  refine congrArg _ (funext fun a => Fin.ext ?_)
  match a with
  | ⟨0, _⟩ => show win0_4.index t (0 : Fin 2) * 128 + 1 * k.val = k.val; omega
  | ⟨1, _⟩ => show win0_4.index t (1 : Fin 2) * 128 + 1 * j.val = j.val; omega

theorem matBlock5 (c : Dev nD) (t : Fin cfg0.N) (k : Fin 128) (j : Fin 128) :
    iblk m c 5 t (ix2 k j) = V m c main_call0_v11 (ix2 k j) := by
  obtain ⟨e3a, e3b, e4a, e4b, e5a, e5b, e6, e7a, e7b, e8, e9a, e9b, e10, e11a, e11b, e12⟩ := idx_resident t
  show V m c main_call0_v11 (((cfg0.win 5).blk t).view.emb (ix2 k j)) = _
  refine congrArg _ (funext fun a => Fin.ext ?_)
  match a with
  | ⟨0, _⟩ => show win0_5.index t (0 : Fin 2) * 128 + 1 * k.val = k.val; omega
  | ⟨1, _⟩ => show win0_5.index t (1 : Fin 2) * 128 + 1 * j.val = j.val; omega

theorem matBlock7 (c : Dev nD) (t : Fin cfg0.N) (k : Fin 128) (j : Fin 128) :
    iblk m c 7 t (ix2 k j) = V m c main_call0_v13 (ix2 k j) := by
  obtain ⟨e3a, e3b, e4a, e4b, e5a, e5b, e6, e7a, e7b, e8, e9a, e9b, e10, e11a, e11b, e12⟩ := idx_resident t
  show V m c main_call0_v13 (((cfg0.win 7).blk t).view.emb (ix2 k j)) = _
  refine congrArg _ (funext fun a => Fin.ext ?_)
  match a with
  | ⟨0, _⟩ => show win0_7.index t (0 : Fin 2) * 128 + 1 * k.val = k.val; omega
  | ⟨1, _⟩ => show win0_7.index t (1 : Fin 2) * 128 + 1 * j.val = j.val; omega

theorem matBlock9 (c : Dev nD) (t : Fin cfg0.N) (k : Fin 128) (j : Fin 384) :
    iblk m c 9 t (ix2 k j) = V m c main_call0_v15 (ix2 k j) := by
  obtain ⟨e3a, e3b, e4a, e4b, e5a, e5b, e6, e7a, e7b, e8, e9a, e9b, e10, e11a, e11b, e12⟩ := idx_resident t
  show V m c main_call0_v15 (((cfg0.win 9).blk t).view.emb (ix2 k j)) = _
  refine congrArg _ (funext fun a => Fin.ext ?_)
  match a with
  | ⟨0, _⟩ => show win0_9.index t (0 : Fin 2) * 128 + 1 * k.val = k.val; omega
  | ⟨1, _⟩ => show win0_9.index t (1 : Fin 2) * 384 + 1 * j.val = j.val; omega

theorem matBlock11 (c : Dev nD) (t : Fin cfg0.N) (k : Fin 128) (j : Fin 384) :
    iblk m c 11 t (ix2 k j) = V m c main_call0_v17 (ix2 k j) := by
  obtain ⟨e3a, e3b, e4a, e4b, e5a, e5b, e6, e7a, e7b, e8, e9a, e9b, e10, e11a, e11b, e12⟩ := idx_resident t
  show V m c main_call0_v17 (((cfg0.win 11).blk t).view.emb (ix2 k j)) = _
  refine congrArg _ (funext fun a => Fin.ext ?_)
  match a with
  | ⟨0, _⟩ => show win0_11.index t (0 : Fin 2) * 128 + 1 * k.val = k.val; omega
  | ⟨1, _⟩ => show win0_11.index t (1 : Fin 2) * 384 + 1 * j.val = j.val; omega

theorem vecBlock6 (c : Dev nD) (t : Fin cfg0.N) (j : Fin 128) :
    iblk m c 6 t (ix1 j) = V m c main_arg7 (ix1 j) := by
  obtain ⟨e3a, e3b, e4a, e4b, e5a, e5b, e6, e7a, e7b, e8, e9a, e9b, e10, e11a, e11b, e12⟩ := idx_resident t
  show V m c main_arg7 (((cfg0.win 6).blk t).view.emb (ix1 j)) = _
  refine congrArg _ (funext fun a => Fin.ext ?_)
  match a with
  | ⟨0, _⟩ => show win0_6.index t (0 : Fin 1) * 128 + 1 * j.val = j.val; omega

theorem vecBlock8 (c : Dev nD) (t : Fin cfg0.N) (j : Fin 128) :
    iblk m c 8 t (ix1 j) = V m c main_arg9 (ix1 j) := by
  obtain ⟨e3a, e3b, e4a, e4b, e5a, e5b, e6, e7a, e7b, e8, e9a, e9b, e10, e11a, e11b, e12⟩ := idx_resident t
  show V m c main_arg9 (((cfg0.win 8).blk t).view.emb (ix1 j)) = _
  refine congrArg _ (funext fun a => Fin.ext ?_)
  match a with
  | ⟨0, _⟩ => show win0_8.index t (0 : Fin 1) * 128 + 1 * j.val = j.val; omega

theorem vecBlock10 (c : Dev nD) (t : Fin cfg0.N) (j : Fin 384) :
    iblk m c 10 t (ix1 j) = V m c main_arg11 (ix1 j) := by
  obtain ⟨e3a, e3b, e4a, e4b, e5a, e5b, e6, e7a, e7b, e8, e9a, e9b, e10, e11a, e11b, e12⟩ := idx_resident t
  show V m c main_arg11 (((cfg0.win 10).blk t).view.emb (ix1 j)) = _
  refine congrArg _ (funext fun a => Fin.ext ?_)
  match a with
  | ⟨0, _⟩ => show win0_10.index t (0 : Fin 1) * 384 + 1 * j.val = j.val; omega

theorem vecBlock12 (c : Dev nD) (t : Fin cfg0.N) (j : Fin 384) :
    iblk m c 12 t (ix1 j) = V m c main_arg13 (ix1 j) := by
  obtain ⟨e3a, e3b, e4a, e4b, e5a, e5b, e6, e7a, e7b, e8, e9a, e9b, e10, e11a, e11b, e12⟩ := idx_resident t
  show V m c main_arg13 (((cfg0.win 12).blk t).view.emb (ix1 j)) = _
  refine congrArg _ (funext fun a => Fin.ext ?_)
  match a with
  | ⟨0, _⟩ => show win0_12.index t (0 : Fin 1) * 384 + 1 * j.val = j.val; omega

/-- Entry (p, q) of an output block of point t is entry (2000 t + p, q) of the output array. -/
theorem outEmb13 (t : Fin cfg0.N) (p : Fin 2000) (q : Fin 128) :
    ((cfg0.win 13).blk t).view.emb (ix2 p q) = ix2 (rowAt t p) q := by
  obtain ⟨e0, e1, e2, e3, e4, e5, e6, e7, e8, e9⟩ := idx_rows t
  refine funext fun a => Fin.ext ?_
  match a with
  | ⟨0, _⟩ => show win0_13.index t (0 : Fin 2) * 2000 + 1 * p.val = t.val * 2000 + p.val; omega
  | ⟨1, _⟩ => show win0_13.index t (1 : Fin 2) * 128 + 1 * q.val = q.val; omega
theorem outEmb14 (t : Fin cfg0.N) (p : Fin 2000) (q : Fin 128) :
    ((cfg0.win 14).blk t).view.emb (ix2 p q) = ix2 (rowAt t p) q := by
  obtain ⟨e0, e1, e2, e3, e4, e5, e6, e7, e8, e9⟩ := idx_rows t
  refine funext fun a => Fin.ext ?_
  match a with
  | ⟨0, _⟩ => show win0_14.index t (0 : Fin 2) * 2000 + 1 * p.val = t.val * 2000 + p.val; omega
  | ⟨1, _⟩ => show win0_14.index t (1 : Fin 2) * 128 + 1 * q.val = q.val; omega

/-! ## The two output arrays after the run -/

/-- The gathered memory rows as the region finds them. -/
abbrev memRows (c : Dev nD) : S100000x128.Idx → EReal := V m c main_call0_v6

/-- The messages of the whole batch. -/
def msgArr (c : Dev nD) : S100000x128.Idx → EReal :=
  messages (m ((c : Thread nD τ).loc main_arg1) : S100000x128.Idx → EReal) (memRows m c) (m ((c : Thread nD τ).loc main_arg2) : S100000x128.Idx → EReal) (m ((c : Thread nD τ).loc main_arg6) : S128x384.Idx → EReal) (m ((c : Thread nD τ).loc main_arg7) : S128.Idx → EReal) (m ((c : Thread nD τ).loc main_arg8) : S128x128.Idx → EReal) (m ((c : Thread nD τ).loc main_arg9) : S128.Idx → EReal)

/-- The updated memory rows of the whole batch. -/
def updArr (c : Dev nD) : S100000x128.Idx → EReal :=
  updates (m ((c : Thread nD τ).loc main_arg1) : S100000x128.Idx → EReal) (memRows m c) (m ((c : Thread nD τ).loc main_arg2) : S100000x128.Idx → EReal) (m ((c : Thread nD τ).loc main_arg6) : S128x384.Idx → EReal) (m ((c : Thread nD τ).loc main_arg7) : S128.Idx → EReal) (m ((c : Thread nD τ).loc main_arg8) : S128x128.Idx → EReal) (m ((c : Thread nD τ).loc main_arg9) : S128.Idx → EReal)
    (m ((c : Thread nD τ).loc main_arg10) : S384x128.Idx → EReal) (m ((c : Thread nD τ).loc main_arg11) : S384.Idx → EReal) (m ((c : Thread nD τ).loc main_arg12) : S384x128.Idx → EReal) (m ((c : Thread nD τ).loc main_arg13) : S384.Idx → EReal)

/-- Row p of point t's three batch blocks is row 2000 t + p of the three batch arrays. -/
theorem rows0 (c : Dev nD) (t : Fin cfg0.N) (p : Fin 2000) :
    (fun k : Fin 128 => iblk m c 0 t (ix2 p k)) = rowOf (m ((c : Thread nD τ).loc main_arg1) : S100000x128.Idx → EReal) (rowAt t p) :=
  funext fun k => (rowBlock0 m c t p k).trans (congrFun (V_main_arg1 m c) _)
theorem rows1 (c : Dev nD) (t : Fin cfg0.N) (p : Fin 2000) :
    (fun k : Fin 128 => iblk m c 1 t (ix2 p k)) = rowOf (memRows m c) (rowAt t p) :=
  funext fun k => rowBlock1 m c t p k
theorem rows2 (c : Dev nD) (t : Fin cfg0.N) (p : Fin 2000) :
    (fun k : Fin 128 => iblk m c 2 t (ix2 p k)) = rowOf (m ((c : Thread nD τ).loc main_arg2) : S100000x128.Idx → EReal) (rowAt t p) :=
  funext fun k => (rowBlock2 m c t p k).trans (congrFun (V_main_arg2 m c) _)

/-- What point t writes back to the messages array is block t of the whole-batch messages. -/
theorem flushed13_eq (c : Dev nD) (t : Fin cfg0.N) :
    (dats m 0 c).flushed 13 t = ((cfg0.win 13).blk t).view.read (Elt Ideal) (msgArr m c) := by
  show (cfg0.win 13).cut (grid0.coords t) ((dats m 0 c).after 13 t) = _
  rw [after0_13]
  unfold out0_13
  rw [View.canon_unit_zero hz2]
  simp only [View.ld_unit_zero (S := S2000x128) hz2, View.ld_unit_zero (S := S128x128) hz2, View.ld_unit_zero (S := S128) hz1]
  funext j
  obtain ⟨p, q, rfl⟩ : ∃ (p : Fin 2000) (q : Fin 128), j = ix2 p q := ⟨j 0, j 1, eq_ix2 j⟩
  show k0_pay4 (iblk m c 0 t) (iblk m c 1 t) (iblk m c 2 t) (iblk m c 3 t) (iblk m c 4 t) (iblk m c 5 t) (iblk m c 6 t) (iblk m c 7 t) (iblk m c 8 t) (ix2 p q) = msgArr m c (((cfg0.win 13).blk t).view.emb (ix2 p q))
  rw [outEmb13]
  refine (message_at (iblk m c 0 t) (iblk m c 1 t) (iblk m c 2 t) (iblk m c 3 t) (iblk m c 4 t) (iblk m c 5 t) (iblk m c 6 t) (iblk m c 7 t) (iblk m c 8 t)
    (m ((c : Thread nD τ).loc main_arg6) : S128x384.Idx → EReal) (m ((c : Thread nD τ).loc main_arg7) : S128.Idx → EReal) (m ((c : Thread nD τ).loc main_arg8) : S128x128.Idx → EReal) (m ((c : Thread nD τ).loc main_arg9) : S128.Idx → EReal)
    (fun k j => (matBlock3 m c t k j).trans (w1a_at m c k j))
    (fun k j => (matBlock4 m c t k j).trans (w1b_at m c k j))
    (fun k j => (matBlock5 m c t k j).trans (w1c_at m c k j))
    (fun j => (vecBlock6 m c t j).trans (congrFun (V_main_arg7 m c) _))
    (fun k j => (matBlock7 m c t k j).trans (w2t_at m c k j))
    (fun j => (vecBlock8 m c t j).trans (congrFun (V_main_arg9 m c) _))
    p q).trans ?_
  rw [rows0 m c t p, rows1 m c t p, rows2 m c t p]
  rfl

/-- What point t writes back to the updated-rows array is block t of the whole-batch update. -/
theorem flushed14_eq (c : Dev nD) (t : Fin cfg0.N) :
    (dats m 0 c).flushed 14 t = ((cfg0.win 14).blk t).view.read (Elt Ideal) (updArr m c) := by
  show (cfg0.win 14).cut (grid0.coords t) ((dats m 0 c).after 14 t) = _
  rw [after0_14]
  unfold out0_14
  rw [View.canon_unit_zero hz2]
  simp only [View.ld_unit_zero (S := S2000x128) hz2, View.ld_unit_zero (S := S128x128) hz2, View.ld_unit_zero (S := S128) hz1,
    View.ld_unit_zero (S := S128x384) hz2, View.ld_unit_zero (S := S384) hz1]
  funext j
  obtain ⟨p, q, rfl⟩ : ∃ (p : Fin 2000) (q : Fin 128), j = ix2 p q := ⟨j 0, j 1, eq_ix2 j⟩
  show k0_pay1 (k0_pay2 (iblk m c 1 t)) (k0_pay3 (iblk m c 1 t)) (k0_pay5 (iblk m c 0 t) (iblk m c 1 t) (iblk m c 2 t) (iblk m c 3 t) (iblk m c 4 t) (iblk m c 5 t) (iblk m c 6 t) (iblk m c 7 t) (iblk m c 8 t)) (k0_pay6 (iblk m c 9 t))
      (constant (F := Ideal) S2000x384 .f32 0x00000000#32) (iblk m c 10 t) (iblk m c 11 t) (iblk m c 12 t) (ix2 p q)
    = updArr m c (((cfg0.win 14).blk t).view.emb (ix2 p q))
  rw [outEmb14]
  refine (update_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    (m ((c : Thread nD τ).loc main_arg6) : S128x384.Idx → EReal) (m ((c : Thread nD τ).loc main_arg7) : S128.Idx → EReal) (m ((c : Thread nD τ).loc main_arg8) : S128x128.Idx → EReal) (m ((c : Thread nD τ).loc main_arg9) : S128.Idx → EReal)
    (m ((c : Thread nD τ).loc main_arg10) : S384x128.Idx → EReal) (m ((c : Thread nD τ).loc main_arg11) : S384.Idx → EReal) (m ((c : Thread nD τ).loc main_arg12) : S384x128.Idx → EReal) (m ((c : Thread nD τ).loc main_arg13) : S384.Idx → EReal)
    (fun k j => (matBlock3 m c t k j).trans (w1a_at m c k j))
    (fun k j => (matBlock4 m c t k j).trans (w1b_at m c k j))
    (fun k j => (matBlock5 m c t k j).trans (w1c_at m c k j))
    (fun j => (vecBlock6 m c t j).trans (congrFun (V_main_arg7 m c) _))
    (fun k j => (matBlock7 m c t k j).trans (w2t_at m c k j))
    (fun j => (vecBlock8 m c t j).trans (congrFun (V_main_arg9 m c) _))
    (fun k g => (matBlock9 m c t k g).trans (wiht_at m c k g))
    (fun g => (vecBlock10 m c t g).trans (congrFun (V_main_arg11 m c) _))
    (fun k g => (matBlock11 m c t k g).trans (whht_at m c k g))
    (fun g => (vecBlock12 m c t g).trans (congrFun (V_main_arg13 m c) _))
    p q).trans ?_
  rw [rows0 m c t p, rows1 m c t p, rows2 m c t p]
  rfl

/-- An index of an output array is in point t's block iff each coordinate is in the block's range on its axis. -/
theorem mem_blk13 (t : Fin cfg0.N) (i : S100000x128.Idx) :
    i ∈ ((cfg0.win 13).blk t).view.set ↔ ∀ a : Fin 2, win0_13.index t a * S2000x128.size a ≤ (i a).val ∧ (i a).val < win0_13.index t a * S2000x128.size a + S2000x128.size a := by
  show i ∈ ((View.whole main_call0_v18_0).slice (win0_13.rect t)).set ↔ _
  rw [View.set_slice_whole, Rect.mem_set_unit]
  exact Iff.rfl
theorem mem_blk14 (t : Fin cfg0.N) (i : S100000x128.Idx) :
    i ∈ ((cfg0.win 14).blk t).view.set ↔ ∀ a : Fin 2, win0_14.index t a * S2000x128.size a ≤ (i a).val ∧ (i a).val < win0_14.index t a * S2000x128.size a + S2000x128.size a := by
  show i ∈ ((View.whole main_call0_v18_1).slice (win0_14.rect t)).set ↔ _
  rw [View.set_slice_whole, Rect.mem_set_unit]
  exact Iff.rfl

/-- The 50 blocks of 2000 rows tile the 100000 rows: row r is in the block of point r / 2000. -/
theorem cover13 (i : S100000x128.Idx) :
    ∃ t : Fin cfg0.N, (cfg0.win 13).flush t = true ∧ i ∈ ((cfg0.win 13).blk t).view.set := by
  have hi0 : (i 0).val < 100000 := (i 0).isLt
  have hi1 : (i 1).val < 128 := (i 1).isLt
  have hN : cfg0.N = 50 := N_0
  have hlt : (i 0).val / 2000 < cfg0.N := by omega
  obtain ⟨e0, e1, e2, e3, e4, e5, e6, e7, e8, e9⟩ := idx_rows ⟨(i 0).val / 2000, hlt⟩
  refine ⟨⟨(i 0).val / 2000, hlt⟩, flush0_13 _, ?_⟩
  rw [mem_blk13]
  intro a
  match a with
  | ⟨0, _⟩ =>
    show win0_13.index ⟨(i 0).val / 2000, hlt⟩ (0 : Fin 2) * 2000 ≤ (i 0).val ∧ (i 0).val < win0_13.index ⟨(i 0).val / 2000, hlt⟩ (0 : Fin 2) * 2000 + 2000
    rw [e6]; show (i 0).val / 2000 * 2000 ≤ (i 0).val ∧ (i 0).val < (i 0).val / 2000 * 2000 + 2000; omega
  | ⟨1, _⟩ =>
    show win0_13.index ⟨(i 0).val / 2000, hlt⟩ (1 : Fin 2) * 128 ≤ (i 1).val ∧ (i 1).val < win0_13.index ⟨(i 0).val / 2000, hlt⟩ (1 : Fin 2) * 128 + 128
    rw [e7]; omega
theorem cover14 (i : S100000x128.Idx) :
    ∃ t : Fin cfg0.N, (cfg0.win 14).flush t = true ∧ i ∈ ((cfg0.win 14).blk t).view.set := by
  have hi0 : (i 0).val < 100000 := (i 0).isLt
  have hi1 : (i 1).val < 128 := (i 1).isLt
  have hN : cfg0.N = 50 := N_0
  have hlt : (i 0).val / 2000 < cfg0.N := by omega
  obtain ⟨e0, e1, e2, e3, e4, e5, e6, e7, e8, e9⟩ := idx_rows ⟨(i 0).val / 2000, hlt⟩
  refine ⟨⟨(i 0).val / 2000, hlt⟩, flush0_14 _, ?_⟩
  rw [mem_blk14]
  intro a
  match a with
  | ⟨0, _⟩ =>
    show win0_14.index ⟨(i 0).val / 2000, hlt⟩ (0 : Fin 2) * 2000 ≤ (i 0).val ∧ (i 0).val < win0_14.index ⟨(i 0).val / 2000, hlt⟩ (0 : Fin 2) * 2000 + 2000
    rw [e8]; show (i 0).val / 2000 * 2000 ≤ (i 0).val ∧ (i 0).val < (i 0).val / 2000 * 2000 + 2000; omega
  | ⟨1, _⟩ =>
    show win0_14.index ⟨(i 0).val / 2000, hlt⟩ (1 : Fin 2) * 128 ≤ (i 1).val ∧ (i 1).val < win0_14.index ⟨(i 0).val / 2000, hlt⟩ (1 : Fin 2) * 128 + 128
    rw [e9]; omega

/-- After the run the messages array holds the whole-batch messages, and the updated-rows array the whole-batch update. -/
theorem final13 (c : Dev nD) : (dats m 0 c).arrAt 13 cfg0.N = msgArr m c :=
  (dats m 0 c).arrAt_eq_of_cover 13 (msgArr m c) (fun t _ => flushed13_eq m c t) cover13
theorem final14 (c : Dev nD) : (dats m 0 c).arrAt 14 cfg0.N = updArr m c :=
  (dats m 0 c).arrAt_eq_of_cover 14 (updArr m c) (fun t _ => flushed14_eq m c t) cover14

end Cert.KernelIdeal.BlockValue

end
-- ==== Proof.LibTypedRef.lean ====
/-
  Typed references to buffers.

  A typed reference is a buffer together with the fact that the buffer's type is a given one; contents at that type are
  carried to the buffer's own type and back along that fact. Carrying there and back changes nothing — for every typed
  reference, with no need to know which buffer it is. Operations of a called function read their operands and write
  their results through such references, so a chain of them nests these round trips; rewriting with this lemma removes
  every one of them.
-/
import Idealize.ShloMosaic.Lib.StableHlo

noncomputable section

namespace Cert.Lib.TypedRef

open Idealize.ShloMosaic

/-- Contents carried to a typed reference's buffer and back are unchanged. General: it holds of every typed reference
    `x` and every value `v` of its type (destructure `x`, substitute its type equation; the two transports are then along
    `rfl`). Use: `simp only [Cert.Lib.TypedRef.ofBuf_toBuf]` on what a chain of a called function's operations leaves. -/
theorem ofBuf_toBuf {sig : RefSig} {T : BufTy} {Val : EltTy → Type} (x : StableHlo.TRef sig T) (v : T.Contents Val) :
    x.ofBuf (x.toBuf v) = v := by
  obtain ⟨r, h, _, _⟩ := x
  subst h
  rfl

/-- The other round trip: contents of the buffer read at the reference's type and carried back are unchanged. -/
theorem toBuf_ofBuf {sig : RefSig} {T : BufTy} {Val : EltTy → Type} (x : StableHlo.TRef sig T) (v : x.ref.ty.Contents Val) :
    x.toBuf (x.ofBuf v) = v := by
  obtain ⟨r, h, _, _⟩ := x
  subst h
  rfl

end Cert.Lib.TypedRef

end
-- ==== Proof.KernelTail.lean ====
/-
  The host operations after the region, and the kernel program's run with its three results named.

  After the pallas_call the program scatters: the updated memory rows into the memory table, the
  timestamps into the last-update vector, and the messages into a table of zeros, each at the
  normalised row indices (a negative index counts from the end of the 500000 rows). Each result is
  therefore one scatter applied to arrays the run has already been read at: the argument arrays
  (unchanged by the region), and the two arrays the region wrote, which hold the whole-batch
  messages and the whole-batch update.
-/
import proofs.«144690_j34033320854152_2_alg».proof.Proof.Gen.KernelIdeal.Frame
import proofs.«144690_j34033320854152_2_alg».proof.Proof.KernelBlocks
import proofs.«144690_j34033320854152_2_alg».proof.Proof.LibTypedRef
import Idealize.ShloMosaic.Lib.StableHlo.Run
import Idealize.ShloMosaic.Lib.Pipeline.Value

set_option maxRecDepth 16384

noncomputable section

namespace Cert.KernelIdeal.TailValue

open Cert.KernelIdeal Cert.KernelIdeal.Gen Idealize.ShloMosaic Idealize.ShloMosaic.TcCoe Idealize.ShloMosaic.ValueIdx
open Idealize.SL.Sem Idealize.ShloMosaic.StableHlo Cert.GruSpec Cert.KernelIdeal.BlockValue

/-! ## Contents read through a typed reference to a literal buffer are the contents -/

theorem ofBuf_arg0 (h1 : main_arg0.ty = ⟨S100000, .i32⟩) (h2 : main_arg0.space ≠ .host) (h3 : main_arg0.isScoped = false)
    (v : main_arg0.ty.Contents (Elt Ideal)) : (TRef.of main_arg0 h1 h2 h3).ofBuf v = v := rfl
theorem ofBuf_arg3 (h1 : main_arg3.ty = ⟨S100000, .f32⟩) (h2 : main_arg3.space ≠ .host) (h3 : main_arg3.isScoped = false)
    (v : main_arg3.ty.Contents (Elt Ideal)) : (TRef.of main_arg3 h1 h2 h3).ofBuf v = v := rfl
theorem ofBuf_arg4 (h1 : main_arg4.ty = ⟨S500000x128, .f32⟩) (h2 : main_arg4.space ≠ .host) (h3 : main_arg4.isScoped = false)
    (v : main_arg4.ty.Contents (Elt Ideal)) : (TRef.of main_arg4 h1 h2 h3).ofBuf v = v := rfl
theorem ofBuf_arg5 (h1 : main_arg5.ty = ⟨S500000, .f32⟩) (h2 : main_arg5.space ≠ .host) (h3 : main_arg5.isScoped = false)
    (v : main_arg5.ty.Contents (Elt Ideal)) : (TRef.of main_arg5 h1 h2 h3).ofBuf v = v := rfl
theorem ofBuf_msg (h1 : main_call0_v18_0.ty = ⟨S100000x128, .f32⟩) (h2 : main_call0_v18_0.space ≠ .host) (h3 : main_call0_v18_0.isScoped = false)
    (v : main_call0_v18_0.ty.Contents (Elt Ideal)) : (TRef.of main_call0_v18_0 h1 h2 h3).ofBuf v = v := rfl
theorem ofBuf_upd (h1 : main_call0_v18_1.ty = ⟨S100000x128, .f32⟩) (h2 : main_call0_v18_1.space ≠ .host) (h3 : main_call0_v18_1.isScoped = false)
    (v : main_call0_v18_1.ty.Contents (Elt Ideal)) : (TRef.of main_call0_v18_1 h1 h2 h3).ofBuf v = v := rfl
theorem toBuf_res0 (h1 : main_v0_0.ty = ⟨S500000x128, .f32⟩) (h2 : main_v0_0.space ≠ .host) (h3 : main_v0_0.isScoped = false)
    (v : (⟨S500000x128, .f32⟩ : BufTy).Contents (Elt Ideal)) : (TRef.of main_v0_0 h1 h2 h3).toBuf v = v := rfl
theorem toBuf_res1 (h1 : main_v0_1.ty = ⟨S500000, .f32⟩) (h2 : main_v0_1.space ≠ .host) (h3 : main_v0_1.isScoped = false)
    (v : (⟨S500000, .f32⟩ : BufTy).Contents (Elt Ideal)) : (TRef.of main_v0_1 h1 h2 h3).toBuf v = v := rfl
theorem toBuf_res2 (h1 : main_v0_2.ty = ⟨S500000x128, .f32⟩) (h2 : main_v0_2.space ≠ .host) (h3 : main_v0_2.isScoped = false)
    (v : (⟨S500000x128, .f32⟩ : BufTy).Contents (Elt Ideal)) : (TRef.of main_v0_2 h1 h2 h3).toBuf v = v := rfl

/-! ## The three results, from any contents W of the buffers at the region's exit -/

theorem tail0_of (W : Valuation τ sig (Elt Ideal)) :
    StableHlo.after (hostOps1 (F := Ideal)) W (Proc.devRef .tc main_v0_0)
      = Host.scatter scatter_S500000x128_S100000x1_S100000x128_1_0_0_1 (fun _ b => b) (W (Proc.devRef .tc main_arg4))
          (broadcastInDim S100000x1 ![0] bcast_S100000_S100000x1_0 (select (cmpi .slt (W (Proc.devRef .tc main_arg0)) (broadcastInDim S100000 ![] bcast_S_S100000 (constantI S_ 32 0#32))) (addi (W (Proc.devRef .tc main_arg0)) (broadcastInDim S100000 ![] bcast_S_S100000 (constantI S_ 32 500000#32))) (W (Proc.devRef .tc main_arg0))))
          (W (Proc.devRef .tc main_call0_v18_1)) := by
  after_results_simp
  simp only [Cert.Lib.TypedRef.ofBuf_toBuf]
  rw [ofBuf_arg4 _ _ _ (W (Proc.devRef .tc main_arg4))]
  rw [ofBuf_arg0 _ _ _ (W (Proc.devRef .tc main_arg0))]
  rw [ofBuf_upd _ _ _ (W (Proc.devRef .tc main_call0_v18_1))]
  exact toBuf_res0 _ _ _ _

theorem tail1_of (W : Valuation τ sig (Elt Ideal)) :
    StableHlo.after (hostOps1 (F := Ideal)) W (Proc.devRef .tc main_v0_1)
      = Host.scatter scatter_S500000_S100000x1_S100000_n_0_0_1 (fun _ b => b) (W (Proc.devRef .tc main_arg5))
          (broadcastInDim S100000x1 ![0] bcast_S100000_S100000x1_0 (select (cmpi .slt (W (Proc.devRef .tc main_arg0)) (broadcastInDim S100000 ![] bcast_S_S100000 (constantI S_ 32 0#32))) (addi (W (Proc.devRef .tc main_arg0)) (broadcastInDim S100000 ![] bcast_S_S100000 (constantI S_ 32 500000#32))) (W (Proc.devRef .tc main_arg0))))
          (W (Proc.devRef .tc main_arg3)) := by
  after_results_simp
  simp only [Cert.Lib.TypedRef.ofBuf_toBuf]
  rw [ofBuf_arg5 _ _ _ (W (Proc.devRef .tc main_arg5))]
  rw [ofBuf_arg0 _ _ _ (W (Proc.devRef .tc main_arg0))]
  rw [ofBuf_arg3 _ _ _ (W (Proc.devRef .tc main_arg3))]
  exact toBuf_res1 _ _ _ _

theorem tail2_of (W : Valuation τ sig (Elt Ideal)) :
    StableHlo.after (hostOps1 (F := Ideal)) W (Proc.devRef .tc main_v0_2)
      = Host.scatter scatter_S500000x128_S100000x1_S100000x128_1_0_0_1 (fun _ b => b)
          (broadcastInDim S500000x128 ![] bcast_S_S500000x128 (constant (F := Ideal) S_ .f32 0x00000000#32))
          (broadcastInDim S100000x1 ![0] bcast_S100000_S100000x1_0 (select (cmpi .slt (W (Proc.devRef .tc main_arg0)) (broadcastInDim S100000 ![] bcast_S_S100000 (constantI S_ 32 0#32))) (addi (W (Proc.devRef .tc main_arg0)) (broadcastInDim S100000 ![] bcast_S_S100000 (constantI S_ 32 500000#32))) (W (Proc.devRef .tc main_arg0))))
          (W (Proc.devRef .tc main_call0_v18_0)) := by
  after_results_simp
  simp only [Cert.Lib.TypedRef.ofBuf_toBuf]
  rw [ofBuf_arg0 _ _ _ (W (Proc.devRef .tc main_arg0))]
  rw [ofBuf_msg _ _ _ (W (Proc.devRef .tc main_call0_v18_0))]
  exact toBuf_res2 _ _ _ _

/-! ## The buffers at the region's exit -/

variable (m : (ℓ : Loc nD τ sig) → Buf (Elt Ideal) ℓ)

/-- Core c's buffer contents when the region is left: its arrays as the run leaves them, every other buffer as found. -/
abbrev exitVal (c : Dev nD) : Valuation τ sig (Elt Ideal) :=
  Pipeline.withArrays (cfgs 0).spec c (V0 m c) (fun w => (dats m 0 c).arrAt w (cfgs 0).N)

theorem exit_arg0 (c : Dev nD) : exitVal m c (Proc.devRef .tc main_arg0) = (m ((c : Thread nD τ).loc main_arg0)) :=
  (Pipeline.withArrays_of_ne _ c (V0 m c) _ main_arg0 (by exact (by decide : ∀ w, Pipeline.arrRef spec0 w ≠ main_arg0))).trans (V_main_arg0 m c)
theorem exit_arg3 (c : Dev nD) : exitVal m c (Proc.devRef .tc main_arg3) = (m ((c : Thread nD τ).loc main_arg3)) :=
  (Pipeline.withArrays_of_ne _ c (V0 m c) _ main_arg3 (by exact (by decide : ∀ w, Pipeline.arrRef spec0 w ≠ main_arg3))).trans (V_main_arg3 m c)
theorem exit_arg4 (c : Dev nD) : exitVal m c (Proc.devRef .tc main_arg4) = (m ((c : Thread nD τ).loc main_arg4)) :=
  (Pipeline.withArrays_of_ne _ c (V0 m c) _ main_arg4 (by exact (by decide : ∀ w, Pipeline.arrRef spec0 w ≠ main_arg4))).trans (V_main_arg4 m c)
theorem exit_arg5 (c : Dev nD) : exitVal m c (Proc.devRef .tc main_arg5) = (m ((c : Thread nD τ).loc main_arg5)) :=
  (Pipeline.withArrays_of_ne _ c (V0 m c) _ main_arg5 (by exact (by decide : ∀ w, Pipeline.arrRef spec0 w ≠ main_arg5))).trans (V_main_arg5 m c)
theorem exit_msg (c : Dev nD) : exitVal m c (Proc.devRef .tc main_call0_v18_0) = msgArr m c :=
  (Pipeline.withArrays_arr spec0 launch0.win.arr_inj c _ _ 13).trans (final13 m c)
theorem exit_upd (c : Dev nD) : exitVal m c (Proc.devRef .tc main_call0_v18_1) = updArr m c :=
  (Pipeline.withArrays_arr spec0 launch0.win.arr_inj c _ _ 14).trans (final14 m c)

/-! ## The results -/

/-- A negative row index counts from the end of the 500000 rows; the indices are then laid as a column. -/
def normIdx (idx : (⟨S100000, .i32⟩ : BufTy).Contents (Elt Ideal)) : (⟨S100000x1, .i32⟩ : BufTy).Contents (Elt Ideal) :=
  broadcastInDim S100000x1 ![0] bcast_S100000_S100000x1_0 (select (cmpi .slt idx (broadcastInDim S100000 ![] bcast_S_S100000 (constantI S_ 32 0#32))) (addi idx (broadcastInDim S100000 ![] bcast_S_S100000 (constantI S_ 32 500000#32))) idx)

/-- The new memory table: the updated rows scattered into the memory table. -/
def newMemory (c : Dev nD) : (⟨S500000x128, .f32⟩ : BufTy).Contents (Elt Ideal) :=
  Host.scatter scatter_S500000x128_S100000x1_S100000x128_1_0_0_1 (fun _ b => b) (m ((c : Thread nD τ).loc main_arg4)) (normIdx (m ((c : Thread nD τ).loc main_arg0))) (updArr m c)
/-- The new last-update vector: the timestamps scattered into it. -/
def newLastUpdate (c : Dev nD) : (⟨S500000, .f32⟩ : BufTy).Contents (Elt Ideal) :=
  Host.scatter scatter_S500000_S100000x1_S100000_n_0_0_1 (fun _ b => b) (m ((c : Thread nD τ).loc main_arg5)) (normIdx (m ((c : Thread nD τ).loc main_arg0))) (m ((c : Thread nD τ).loc main_arg3))
/-- The new messages table: the messages scattered into a table of zeros. -/
def newMessages (c : Dev nD) : (⟨S500000x128, .f32⟩ : BufTy).Contents (Elt Ideal) :=
  Host.scatter scatter_S500000x128_S100000x1_S100000x128_1_0_0_1 (fun _ b => b)
    (broadcastInDim S500000x128 ![] bcast_S_S500000x128 (constant (F := Ideal) S_ .f32 0x00000000#32)) (normIdx (m ((c : Thread nD τ).loc main_arg0))) (msgArr m c)

theorem tail0 (c : Dev nD) : Pipeline.afterTail₀ cfgs (dats m) 0 (V0 m) [hostOps1] c main_v0_0 = newMemory m c := by
  unfold Pipeline.afterTail₀
  show StableHlo.after hostOps1 (exitVal m c) (Proc.devRef .tc main_v0_0) = _
  rw [tail0_of, exit_arg4, exit_arg0, exit_upd]
  rfl
theorem tail1 (c : Dev nD) : Pipeline.afterTail₀ cfgs (dats m) 0 (V0 m) [hostOps1] c main_v0_1 = newLastUpdate m c := by
  unfold Pipeline.afterTail₀
  show StableHlo.after hostOps1 (exitVal m c) (Proc.devRef .tc main_v0_1) = _
  rw [tail1_of, exit_arg5, exit_arg0, exit_arg3]
  rfl
theorem tail2 (c : Dev nD) : Pipeline.afterTail₀ cfgs (dats m) 0 (V0 m) [hostOps1] c main_v0_2 = newMessages m c := by
  unfold Pipeline.afterTail₀
  show StableHlo.after hostOps1 (exitVal m c) (Proc.devRef .tc main_v0_2) = _
  rw [tail2_of, exit_arg0, exit_msg]
  rfl

/-! ## The run, read -/

variable (ρ : Dev nD → PrngReg)

/-- Every weakly fair execution of the kernel program terminates with its three results at the three scatters above
    and its argument arrays unchanged. -/
theorem run_results : θ_run defs (onTc (τ := τ) (main (F := Ideal))) ⟨m, fun _ => 0, ρ⟩ (fun r => ∀ c : Dev nD,
      r.2.mem ((c.tc : Thread nD τ).loc main_v0_0) = newMemory m c
      ∧ r.2.mem ((c.tc : Thread nD τ).loc main_v0_1) = newLastUpdate m c
      ∧ r.2.mem ((c.tc : Thread nD τ).loc main_v0_2) = newMessages m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨
      ((h c).2 main_v0_0 (Pipeline.mem_restRefs_of main_v0_0 (by decide) (by decide))).trans (tail0 m c),
      ((h c).2 main_v0_1 (Pipeline.mem_restRefs_of main_v0_1 (by decide) (by decide))).trans (tail1 m c),
      ((h c).2 main_v0_2 (Pipeline.mem_restRefs_of main_v0_2 (by decide) (by decide))).trans (tail2 m c),
      (((h c).2 main_arg0 (Pipeline.mem_restRefs_of main_arg0 (by decide) (by decide))).trans (W_main_arg0 m (dats m) c)),
      ((h c).1 0).trans ((((dats m) 0 c).arrAt_in 0 rfl _).trans ((A_eq m c 0).trans (V_main_arg1 m c))),
      ((h c).1 2).trans ((((dats m) 0 c).arrAt_in 2 rfl _).trans ((A_eq m c 2).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      ((h c).1 6).trans ((((dats m) 0 c).arrAt_in 6 rfl _).trans ((A_eq m c 6).trans (V_main_arg7 m c))),
      (((h c).2 main_arg8 (Pipeline.mem_restRefs_of main_arg8 (by decide) (by decide))).trans (W_main_arg8 m (dats m) c)),
      ((h c).1 8).trans ((((dats m) 0 c).arrAt_in 8 rfl _).trans ((A_eq m c 8).trans (V_main_arg9 m c))),
      (((h c).2 main_arg10 (Pipeline.mem_restRefs_of main_arg10 (by decide) (by decide))).trans (W_main_arg10 m (dats m) c)),
      ((h c).1 10).trans ((((dats m) 0 c).arrAt_in 10 rfl _).trans ((A_eq m c 10).trans (V_main_arg11 m c))),
      (((h c).2 main_arg12 (Pipeline.mem_restRefs_of main_arg12 (by decide) (by decide))).trans (W_main_arg12 m (dats m) c)),
      ((h c).1 12).trans ((((dats m) 0 c).arrAt_in 12 rfl _).trans ((A_eq m c 12).trans (V_main_arg13 m c)))⟩) (run_main m ρ)

end Cert.KernelIdeal.TailValue

end
-- ==== Proof.Bridge.lean ====
/-
  The two idealized programs compute the same three results.

  Both programs normalise the row indices, gather the memory rows, and scatter three results; between
  the gather and the scatters the reference computes the messages and the updated rows with whole-array
  host operations, the kernel program with its pallas_call. Read at the ideal instance, both are the
  specification's whole-batch functions of the same arrays (the reference: its run read one operation at
  a time; the kernel program: the blocks its grid points write back), and the shared gather and scatters
  are the same operations of the same literal dimensions, so the results agree.
-/
import proofs.«144690_j34033320854152_2_alg».proof.Proof.RefRows
import proofs.«144690_j34033320854152_2_alg».proof.Proof.KernelTail
import proofs.«144690_j34033320854152_2_alg».proof.Proof.Gen.ReferenceIdeal.Run
import proofs.«144690_j34033320854152_2_alg».proof.Proof.Gen.ReferenceIdeal.Read
import proofs.«144690_j34033320854152_2_alg».proof.Proof.Gen.Pre_finite_inputs
import proofs.«144690_j34033320854152_2_alg».proof.Defs

set_option maxRecDepth 16384

noncomputable section

namespace Cert.Proof.Bridge

open Idealize.ShloMosaic Idealize.ShloMosaic.TcCoe Idealize.SL.Sem

/-! ## The shared host operations, as each program spells them -/

/-- The reference's three index normalisations are the kernel program's. -/
theorem idx62 (x0 : (⟨Cert.ReferenceIdeal.S100000, .i32⟩ : BufTy).Contents (Elt Ideal)) :
    Cert.ReferenceIdeal.Read.val_main_v62 (F := Ideal) x0 = Cert.KernelIdeal.TailValue.normIdx x0 := rfl
theorem idx69 (x0 : (⟨Cert.ReferenceIdeal.S100000, .i32⟩ : BufTy).Contents (Elt Ideal)) :
    Cert.ReferenceIdeal.Read.val_main_v69 (F := Ideal) x0 = Cert.KernelIdeal.TailValue.normIdx x0 := rfl
theorem idx77 (x0 : (⟨Cert.ReferenceIdeal.S100000, .i32⟩ : BufTy).Contents (Elt Ideal)) :
    Cert.ReferenceIdeal.Read.val_main_v77 (F := Ideal) x0 = Cert.KernelIdeal.TailValue.normIdx x0 := rfl

variable (m : (ℓ : Loc Cert.KernelIdeal.nD Cert.KernelIdeal.τ Cert.KernelIdeal.sig) → Buf (Elt Ideal) ℓ) (c : Dev Cert.KernelIdeal.nD)

/-- The memory rows the reference gathers are the rows the kernel program's region finds gathered. -/
theorem rows_eq :
    Cert.ReferenceIdeal.Read.val_main_v6 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg4)) = Cert.KernelIdeal.BlockValue.memRows m c := by
  unfold Cert.KernelIdeal.BlockValue.memRows
  rw [Cert.KernelIdeal.HostValue.memRows_eq]
  rfl

/-! ## The three results -/

theorem newMemory_eq :
    Cert.ReferenceIdeal.Read.val_main_v63 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) = Cert.KernelIdeal.TailValue.newMemory m c := by
  unfold Cert.ReferenceIdeal.Read.val_main_v63 Cert.KernelIdeal.TailValue.newMemory Cert.KernelIdeal.BlockValue.updArr
  rw [Cert.ReferenceIdeal.RefRows.updates_eq, idx62, rows_eq m c]
  rfl

theorem newLastUpdate_eq :
    Cert.ReferenceIdeal.Read.val_main_v70 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) = Cert.KernelIdeal.TailValue.newLastUpdate m c := by
  unfold Cert.ReferenceIdeal.Read.val_main_v70 Cert.KernelIdeal.TailValue.newLastUpdate
  rw [idx69]
  rfl

theorem newMessages_eq :
    Cert.ReferenceIdeal.Read.val_main_v78 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) = Cert.KernelIdeal.TailValue.newMessages m c := by
  unfold Cert.ReferenceIdeal.Read.val_main_v78 Cert.KernelIdeal.TailValue.newMessages Cert.KernelIdeal.BlockValue.msgArr
  rw [Cert.ReferenceIdeal.RefRows.messages_eq, idx77, rows_eq m c]
  rfl

/-! ## The claim's conjuncts about the reference and about the pair -/

/-- The reference runs and leaves its arguments unchanged: its run, with the three results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- From memories agreeing on the arguments both programs end with the new memory table, the new last-update vector
    and the new messages table: the kernel program's run read through its region and the scatters after it, the
    reference's run read one operation at a time, and the three equalities above. -/
theorem algebraic : Cert.algebraic_KernelIdeal_ReferenceIdeal := by
  intro m ρ m' ρ' _ hagree
  refine ⟨fun c => Cert.KernelIdeal.TailValue.newMemory m c, fun c => Cert.KernelIdeal.TailValue.newLastUpdate m c,
    fun c => Cert.KernelIdeal.TailValue.newMessages m c, Cert.KernelIdeal.TailValue.run_results m ρ, ?_⟩
  refine (θ_run Cert.ReferenceIdeal.defs _ _).mono (fun _ h c => ⟨(h c).1.trans ?_, (h c).2.1.trans ?_, (h c).2.2.1.trans ?_, (h c).2.2.2⟩)
    (Cert.ReferenceIdeal.Value.run (F := Ideal) m' ρ')
  · obtain ⟨a0, a1, a2, a3, a4, a5, a6, a7, a8, a9, a10, a11, a12, a13⟩ := hagree c
    rw [Cert.ReferenceIdeal.Read.val_main_v63_eq, a0, a1, a2, a4, a6, a7, a8, a9, a10, a11, a12, a13]
    exact newMemory_eq m c
  · obtain ⟨a0, a1, a2, a3, a4, a5, a6, a7, a8, a9, a10, a11, a12, a13⟩ := hagree c
    rw [a0, a3, a5]
    exact (Cert.ReferenceIdeal.Read.val_main_v70_eq (F := Ideal) _ _ _).trans (newLastUpdate_eq m c)
  · obtain ⟨a0, a1, a2, a3, a4, a5, a6, a7, a8, a9, a10, a11, a12, a13⟩ := hagree c
    rw [a0, a1, a2, a4, a6, a7, a8, a9]
    exact (Cert.ReferenceIdeal.Read.val_main_v78_eq (F := Ideal) _ _ _ _ _ _ _ _).trans (newMessages_eq m c)

end Cert.Proof.Bridge

end
-- ==== Proof.lean ====
/-
  The certificate of a memory-update step of a temporal graph network: for a batch of 100000 events, gather each
  event's memory row, compute a message from the node features, the memory row and the edge features (two dense
  layers with a clamp at zero between them), update the memory row with a GRU cell, and scatter the updated rows,
  the timestamps and the messages back into tables of 500000 rows.

  The kernel program computes the messages and the updated rows in one pallas_call over 50 blocks of 2000 rows, with
  the first dense layer split into three matrix products (one per part of the concatenated row) and the weights
  transposed and cut on the host beforehand; the reference computes them with whole-array operations over the
  concatenation. At the ideal instance both are the same functions of the argument arrays, entry by entry
  (Proof/GruSpec.lean states them; the only law between the two spellings is that a sum over 384 columns is the sum
  of its three blocks of 128, which holds on the extended reals without any finiteness), and the gather before and
  the three scatters after are the same operations in both programs.

  The three frames: the kernel program's and its idealization's are the generated frame certificates; the
  reference's is its generated run with the results dropped. The idealization rewrote no operation, so there is
  nothing to preserve.
-/
import proofs.«144690_j34033320854152_2_alg».proof.Defs
import proofs.«144690_j34033320854152_2_alg».proof.Proof.Gen.Kernel
import proofs.«144690_j34033320854152_2_alg».proof.Proof.Gen.Kernel.Skeleton
import proofs.«144690_j34033320854152_2_alg».proof.Proof.Gen.Kernel.Launch
import proofs.«144690_j34033320854152_2_alg».proof.Proof.Gen.Kernel.Points
import proofs.«144690_j34033320854152_2_alg».proof.Proof.Gen.Kernel.Frame
import proofs.«144690_j34033320854152_2_alg».proof.Proof.Gen.KernelIdeal
import proofs.«144690_j34033320854152_2_alg».proof.Proof.Gen.KernelIdeal.Skeleton
import proofs.«144690_j34033320854152_2_alg».proof.Proof.Gen.KernelIdeal.Launch
import proofs.«144690_j34033320854152_2_alg».proof.Proof.Gen.KernelIdeal.Points
import proofs.«144690_j34033320854152_2_alg».proof.Proof.Gen.KernelIdeal.Frame
import proofs.«144690_j34033320854152_2_alg».proof.Proof.Gen.ReferenceIdeal
import proofs.«144690_j34033320854152_2_alg».proof.Proof.Gen.ReferenceIdeal.Run
import proofs.«144690_j34033320854152_2_alg».proof.Proof.Gen.ReferenceIdeal.Read
import proofs.«144690_j34033320854152_2_alg».proof.Proof.Gen.Pre_finite_inputs
import proofs.«144690_j34033320854152_2_alg».proof.Proof.Bridge
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  Bridge.frame_reference,
  trivial,
  Bridge.algebraic⟩

end Cert.Proof

end
